-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S200000x11 : Shape := ⟨2, ![200000, 11]⟩
abbrev S2000000 : Shape := ⟨1, ![2000000]⟩
abbrev S16000000 : Shape := ⟨1, ![16000000]⟩
abbrev S2x11 : Shape := ⟨2, ![2, 11]⟩
abbrev S11 : Shape := ⟨1, ![11]⟩
abbrev S11x11 : Shape := ⟨2, ![11, 11]⟩
abbrev S11x64 : Shape := ⟨2, ![11, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S200000x11 : S_.BroadcastsInDim S200000x11 (![] : Fin 0 → Fin S200000x11.rank)
  reducesTo_S200000x11_S_d0_1 : S200000x11.ReducesTo [0, 1] S_
  bcast_S_S2x11 : S_.BroadcastsInDim S2x11 (![] : Fin 0 → Fin S2x11.rank)
  reducesTo_S2x11_S_d0_1 : S2x11.ReducesTo [0, 1] S_
  bcast_S_S11 : S_.BroadcastsInDim S11 (![] : Fin 0 → Fin S11.rank)
  reducesTo_S11_S_d0 : S11.ReducesTo [0] S_
  bcast_S_S11x11 : S_.BroadcastsInDim S11x11 (![] : Fin 0 → Fin S11x11.rank)
  reducesTo_S11x11_S_d0_1 : S11x11.ReducesTo [0, 1] S_
  bcast_S_S11x64 : S_.BroadcastsInDim S11x64 (![] : Fin 0 → Fin S11x64.rank)
  reducesTo_S11x64_S_d0_1 : S11x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg15 : FVec F S11x64 .f32) (main_arg16 : FVec F S64x2 .f32) (main_arg17 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S11x64 .f32 := Host.absf main_arg15
  let main_cst_20 : FVec F S_ .f32 := constant S_ .f32 0x7F800000#32
  let main_v55 : FVec F S11x64 .f32 := broadcastInDim S11x64 ![] bcast_S_S11x64 main_cst_20
  let main_v56 : IVec S11x64 1 := cmpf .olt main_v54 main_v55
  let main_c_21 : IVec S_ 1 := constantI S_ 1 1#1
  let main_v57 : IVec S_ 1 := (fun x v => Host.reduce IntOp.andi x v reducesTo_S11x64_S_d0_1 h_S_) main_v56 main_c_21
  let main_v58 : IVec S_ 1 := andi main_v53 main_v57
  let main_v59 : FVec F S64x2 .f32 := Host.absf main_arg16
  let main_cst_22 : FVec F S_ .f32 := constant S_ .f32 0x7F800000#32
  let main_v60 : FVec F S64x2 .f32 := broadcastInDim S64x2 ![] bcast_S_S64x2 main_cst_22
  let main_v61 : IVec S64x2 1 := cmpf .olt main_v59 main_v60
  let main_c_23 : IVec S_ 1 := constantI S_ 1 1#1
  let main_v62 : IVec S_ 1 := (fun x v => Host.reduce IntOp.andi x v reducesTo_S64x2_S_d0_1 h_S_) main_v61 main_c_23
  let main_v63 : IVec S_ 1 := andi main_v58 main_v62
  let main_v64 : FVec F S2 .f32 := Host.absf main_arg17
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_v63 main_v67

def fn_part2 {F : FTy → Type} [FloatOps F] (main_arg11 : FVec F S64 .f32) (main_arg12 : FVec F S11x64 .f32) (main_arg13 : FVec F S11x64 .f32) (main_arg14 : FVec F S64 .f32) (main_arg15 : FVec F S11x64 .f32) (main_arg16 : FVec F S64x2 .f32) (main_arg17 : FVec F S2 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S11x64 .f32 := Host.absf main_arg12
  let main_cst_14 : FVec F S_ .f32 := constant S_ .f32 0x7F800000#32
  let main_v40 : FVec F S11x64 .f32 := broadcastInDim S11x64 ![] bcast_S_S11x64 main_cst_14
  let main_v41 : IVec S11x64 1 := cmpf .olt main_v39 main_v40
  let main_c_15 : IVec S_ 1 := constantI S_ 1 1#1
  let main_v42 : IVec S_ 1 := (fun x v => Host.reduce IntOp.andi x v reducesTo_S11x64_S_d0_1 h_S_) main_v41 main_c_15
  let main_v43 : IVec S_ 1 := andi main_v38 main_v42
  let main_v44 : FVec F S11x64 .f32 := Host.absf main_arg13
  let main_cst_16 : FVec F S_ .f32 := constant S_ .f32 0x7F800000#32
  let main_v45 : FVec F S11x64 .f32 := broadcastInDim S11x64 ![] bcast_S_S11x64 main_cst_16
  let main_v46 : IVec S11x64 1 := cmpf .olt main_v44 main_v45
  let main_c_17 : IVec S_ 1 := constantI S_ 1 1#1
  let main_v47 : IVec S_ 1 := (fun x v => Host.reduce IntOp.andi x v reducesTo_S11x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_arg17 main_v48 main_v49 main_v50

def fn_part1 {F : FTy → Type} [FloatOps F] (main_arg8 : FVec F S11x11 .f32) (main_arg9 : FVec F S11 .f32) (main_arg10 : FVec F S11x64 .f32) (main_arg11 : FVec F S64 .f32) (main_arg12 : FVec F S11x64 .f32) (main_arg13 : FVec F S11x64 .f32) (main_arg14 : FVec F S64 .f32) (main_arg15 : FVec F S11x64 .f32) (main_arg16 : FVec F S64x2 .f32) (main_arg17 : FVec F S2 .f32) (main_v13 : IVec S_ 1) (main_v16 : IVec S11 1) : IVec S_ 1 :=
  let main_c_5 : IVec S_ 1 := constantI S_ 1 1#1
  let main_v17 : IVec S_ 1 := (fun x v => Host.reduce IntOp.andi x v reducesTo_S11_S_d0 h_S_) main_v16 main_c_5
  let main_v18 : IVec S_ 1 := andi main_v13 main_v17
  let main_v19 : FVec F S11x11 .f32 := Host.absf main_arg8
  let main_cst_6 : FVec F S_ .f32 := constant S_ .f32 0x7F800000#32
  let main_v20 : FVec F S11x11 .f32 := broadcastInDim S11x11 ![] bcast_S_S11x11 main_cst_6
  let main_v21 : IVec S11x11 1 := cmpf .olt main_v19 main_v20
  let main_c_7 : IVec S_ 1 := constantI S_ 1 1#1
  let main_v22 : IVec S_ 1 := (fun x v => Host.reduce IntOp.andi x v reducesTo_S11x11_S_d0_1 h_S_) main_v21 main_c_7
  let main_v23 : IVec S_ 1 := andi main_v18 main_v22
  let main_v24 : FVec F S11 .f32 := Host.absf main_arg9
  let main_cst_8 : FVec F S_ .f32 := constant S_ .f32 0x7F800000#32
  let main_v25 : FVec F S11 .f32 := broadcastInDim S11 ![] bcast_S_S11 main_cst_8
  let main_v26 : IVec S11 1 := cmpf .olt main_v24 main_v25
  let main_c_9 : IVec S_ 1 := constantI S_ 1 1#1
  let main_v27 : IVec S_ 1 := (fun x v => Host.reduce IntOp.andi x v reducesTo_S11_S_d0 h_S_) main_v26 main_c_9
  let main_v28 : IVec S_ 1 := andi main_v23 main_v27
  let main_v29 : FVec F S11x64 .f32 := Host.absf main_arg10
  let main_cst_10 : FVec F S_ .f32 := constant S_ .f32 0x7F800000#32
  let main_v30 : FVec F S11x64 .f32 := broadcastInDim S11x64 ![] bcast_S_S11x64 main_cst_10
  let main_v31 : IVec S11x64 1 := cmpf .olt main_v29 main_v30
  let main_c_11 : IVec S_ 1 := constantI S_ 1 1#1
  let main_v32 : IVec S_ 1 := (fun x v => Host.reduce IntOp.andi x v reducesTo_S11x64_S_d0_1 h_S_) main_v31 main_c_11
  let main_v33 : IVec S_ 1 := andi main_v28 main_v32
  fn_part2 (F := F) main_arg11 main_arg12 main_arg13 main_arg14 main_arg15 main_arg16 main_arg17 main_v33

def fn {F : FTy → Type} [FloatOps F] (main_arg0 : FVec F S1000000x2 .f32) (main_arg1 : FVec F S200000x11 .f32) (main_arg2 : IVec S2000000 32) (main_arg3 : IVec S2000000 32) (main_arg4 : IVec S16000000 32) (main_arg5 : IVec S16000000 32) (main_arg6 : FVec F S2x11 .f32) (main_arg7 : FVec F S11 .f32) (main_arg8 : FVec F S11x11 .f32) (main_arg9 : FVec F S11 .f32) (main_arg10 : FVec F S11x64 .f32) (main_arg11 : FVec F S64 .f32) (main_arg12 : FVec F S11x64 .f32) (main_arg13 : FVec F S11x64 .f32) (main_arg14 : FVec F S64 .f32) (main_arg15 : FVec F S11x64 .f32) (main_arg16 : FVec F S64x2 .f32) (main_arg17 : FVec F S2 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S200000x11 .f32 := Host.absf main_arg1
  let main_cst_0 : FVec F S_ .f32 := constant S_ .f32 0x7F800000#32
  let main_v5 : FVec F S200000x11 .f32 := broadcastInDim S200000x11 ![] bcast_S_S200000x11 main_cst_0
  let main_v6 : IVec S200000x11 1 := cmpf .olt main_v4 main_v5
  let main_c_1 : IVec S_ 1 := constantI S_ 1 1#1
  let main_v7 : IVec S_ 1 := (fun x v => Host.reduce IntOp.andi x v reducesTo_S200000x11_S_d0_1 h_S_) main_v6 main_c_1
  let main_v8 : IVec S_ 1 := andi main_v3 main_v7
  let main_v9 : FVec F S2x11 .f32 := Host.absf main_arg6
  let main_cst_2 : FVec F S_ .f32 := constant S_ .f32 0x7F800000#32
  let main_v10 : FVec F S2x11 .f32 := broadcastInDim S2x11 ![] bcast_S_S2x11 main_cst_2
  let main_v11 : IVec S2x11 1 := cmpf .olt main_v9 main_v10
  let main_c_3 : IVec S_ 1 := constantI S_ 1 1#1
  let main_v12 : IVec S_ 1 := (fun x v => Host.reduce IntOp.andi x v reducesTo_S2x11_S_d0_1 h_S_) main_v11 main_c_3
  let main_v13 : IVec S_ 1 := andi main_v8 main_v12
  let main_v14 : FVec F S11 .f32 := Host.absf main_arg7
  let main_cst_4 : FVec F S_ .f32 := constant S_ .f32 0x7F800000#32
  let main_v15 : FVec F S11 .f32 := broadcastInDim S11 ![] bcast_S_S11 main_cst_4
  let main_v16 : IVec S11 1 := cmpf .olt main_v14 main_v15
  fn_part1 (F := F) main_arg8 main_arg9 main_arg10 main_arg11 main_arg12 main_arg13 main_arg14 main_arg15 main_arg16 main_arg17 main_v13 main_v16
-- ==== Kernel.lean ====
abbrev S1000000x2 : Shape := ⟨2, ![1000000, 2]⟩
abbrev S200000x11 : Shape := ⟨2, ![200000, 11]⟩
abbrev S2000000 : Shape := ⟨1, ![2000000]⟩
abbrev S16000000 : Shape := ⟨1, ![16000000]⟩
abbrev S2x11 : Shape := ⟨2, ![2, 11]⟩
abbrev S11 : Shape := ⟨1, ![11]⟩
abbrev S11x11 : Shape := ⟨2, ![11, 11]⟩
abbrev S11x64 : Shape := ⟨2, ![11, 64]⟩
abbrev S64 : Shape := ⟨1, ![64]⟩
abbrev S64x2 : Shape := ⟨2, ![64, 2]⟩
abbrev S2 : Shape := ⟨1, ![2]⟩
abbrev S1x11 : Shape := ⟨2, ![1, 11]⟩
abbrev S1000000x11 : Shape := ⟨2, ![1000000, 11]⟩
abbrev S8000x2 : Shape := ⟨2, ![8000, 2]⟩
abbrev S8000x11 : Shape := ⟨2, ![8000, 11]⟩
abbrev S_ : Shape := ⟨0, ![]⟩
abbrev S2000000x1 : Shape := ⟨2, ![2000000, 1]⟩
abbrev S2000000x11 : Shape := ⟨2, ![2000000, 11]⟩
abbrev S16000000x1 : Shape := ⟨2, ![16000000, 1]⟩
abbrev S16000000x11 : Shape := ⟨2, ![16000000, 11]⟩
abbrev S1x64 : Shape := ⟨2, ![1, 64]⟩
abbrev S1x2 : Shape := ⟨2, ![1, 2]⟩
abbrev S8000x64 : Shape := ⟨2, ![8000, 64]⟩
abbrev S8000x1 : Shape := ⟨2, ![8000, 1]⟩
abbrev S1000000x1 : Shape := ⟨2, ![1000000, 1]⟩
abbrev S1000000 : Shape := ⟨1, ![1000000]⟩

abbrev nBuf : Space → Nat
  | .hbm => 56
  | .vmem => 28
  | .smem => 0
  | _ => 0

abbrev bufTy : (tb : Table) → Fin (tcTables nBuf tb) → BufTy
  | .hbm, ⟨0, _⟩ => ⟨S1000000x2, .f32⟩
  | .hbm, ⟨1, _⟩ => ⟨S200000x11, .f32⟩
  | .hbm, ⟨2, _⟩ => ⟨S2000000, .i32⟩
  | .hbm, ⟨3, _⟩ => ⟨S2000000, .i32⟩
  | .hbm, ⟨4, _⟩ => ⟨S16000000, .i32⟩
  | .hbm, ⟨5, _⟩ => ⟨S16000000, .i32⟩
  | .hbm, ⟨6, _⟩ => ⟨S2x11, .f32⟩
  | .hbm, ⟨7, _⟩ => ⟨S11, .f32⟩
  | .hbm, ⟨8, _⟩ => ⟨S11x11, .f32⟩
  | .hbm, ⟨9, _⟩ => ⟨S11, .f32⟩
  | .hbm, ⟨10, _⟩ => ⟨S11x64, .f32⟩
  | .hbm, ⟨11, _⟩ => ⟨S64, .f32⟩
  | .hbm, ⟨12, _⟩ => ⟨S11x64, .f32⟩
  | .hbm, ⟨13, _⟩ => ⟨S11x64, .f32⟩
  | .hbm, ⟨14, _⟩ => ⟨S64, .f32⟩
  | .hbm, ⟨15, _⟩ => ⟨S11x64, .f32⟩
  | .hbm, ⟨16, _⟩ => ⟨S64x2, .f32⟩
  | .hbm, ⟨17, _⟩ => ⟨S2, .f32⟩
  | .hbm, ⟨18, _⟩ => ⟨S1x11, .f32⟩
  | .hbm, ⟨19, _⟩ => ⟨S1000000x11, .f32⟩
  | .hbm, ⟨20, _⟩ => ⟨S1x11, .f32⟩
  | .hbm, ⟨21, _⟩ => ⟨S200000x11, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x11, .f32⟩
  | .hbm, ⟨31, _⟩ => ⟨S_, .f32⟩
  | .hbm, ⟨32, _⟩ => ⟨S1000000x11, .f32⟩
  | .hbm, ⟨33, _⟩ => ⟨S2000000x1, .i32⟩
  | .hbm, ⟨34, _⟩ => ⟨S1000000x11, .f32⟩
  | .hbm, ⟨35, _⟩ => ⟨S_, .i32⟩
  | .hbm, ⟨36, _⟩ => ⟨S16000000, .i32⟩
  | .hbm, ⟨37, _⟩ => ⟨S16000000, .i1⟩
  | .hbm, ⟨38, _⟩ => ⟨S_, .i32⟩
  | .hbm, ⟨39, _⟩ => ⟨S16000000, .i32⟩
  | .hbm, ⟨40, _⟩ => ⟨S16000000, .i32⟩
  | .hbm, ⟨41, _⟩ => ⟨S16000000, .i32⟩
  | .hbm, ⟨42, _⟩ => ⟨S16000000x1, .i32⟩
  | .hbm, ⟨43, _⟩ => ⟨S16000000x11, .f32⟩
  | .hbm, ⟨44, _⟩ => ⟨S_, .f32⟩
  | .hbm, ⟨45, _⟩ => ⟨S1000000x11, .f32⟩
  | .hbm, ⟨46, _⟩ => ⟨S16000000x1, .i32⟩
  | .hbm, ⟨47, _⟩ => ⟨S1000000x11, .f32⟩
  | .hbm, ⟨48, _⟩ => ⟨S1x64, .f32⟩
  | .hbm, ⟨49, _⟩ => ⟨S1x64, .f32⟩
  | .hbm, ⟨50, _⟩ => ⟨S1x2, .f32⟩
  | .hbm, ⟨51, _⟩ => ⟨S1000000x2, .f32⟩
  | .hbm, ⟨52, _⟩ => ⟨S1000000x1, .f32⟩
  | .hbm, ⟨53, _⟩ => ⟨S1000000, .f32⟩
  | .hbm, ⟨54, _⟩ => ⟨S1000000x1, .f32⟩
  | .hbm, ⟨55, _⟩ => ⟨S1000000, .f32⟩
  | .local _ .vmem, ⟨0, _⟩ => ⟨S8000x2, .f32⟩
  | .local _ .vmem, ⟨1, _⟩ => ⟨S8000x2, .f32⟩
  | .local _ .vmem, ⟨2, _⟩ => ⟨S2x11, .f32⟩
  | .local _ .vmem, ⟨3, _⟩ => ⟨S1x11, .f32⟩
  | .local _ .vmem, ⟨4, _⟩ => ⟨S8000x11, .f32⟩
  | .local _ .vmem, ⟨5, _⟩ => ⟨S8000x11, .f32⟩
  | .local _ .vmem, ⟨6, _⟩ => ⟨S8000x11, .f32⟩
  | .local _ .vmem, ⟨7, _⟩ => ⟨S8000x11, .f32⟩
  | .local _ .vmem, ⟨8, _⟩ => ⟨S11x11, .f32⟩
  | .local _ .vmem, ⟨9, _⟩ => ⟨S1x11, .f32⟩
  | .local _ .vmem, ⟨10, _⟩ => ⟨S8000x11, .f32⟩
  | .local _ .vmem, ⟨11, _⟩ => ⟨S8000x11, .f32⟩
  | .local _ .vmem, ⟨12, _⟩ => ⟨S8000x11, .f32⟩
  | .local _ .vmem, ⟨13, _⟩ => ⟨S8000x11, .f32⟩
  | .local _ .vmem, ⟨14, _⟩ => ⟨S8000x11, .f32⟩
  | .local _ .vmem, ⟨15, _⟩ => ⟨S8000x11, .f32⟩
  | .local _ .vmem, ⟨16, _⟩ => ⟨S8000x11, .f32⟩
  | .local _ .vmem, ⟨17, _⟩ => ⟨S8000x11, .f32⟩
  | .local _ .vmem, ⟨18, _⟩ => ⟨S11x64, .f32⟩
  | .local _ .vmem, ⟨19, _⟩ => ⟨S1x64, .f32⟩
  | .local _ .vmem, ⟨20, _⟩ => ⟨S11x64, .f32⟩
  | .local _ .vmem, ⟨21, _⟩ => ⟨S11x64, .f32⟩
  | .local _ .vmem, ⟨22, _⟩ => ⟨S1x64, .f32⟩
  | .local _ .vmem, ⟨23, _⟩ => ⟨S11x64, .f32⟩
  | .local _ .vmem, ⟨24, _⟩ => ⟨S64x2, .f32⟩
  | .local _ .vmem, ⟨25, _⟩ => ⟨S1x2, .f32⟩
  | .local _ .vmem, ⟨26, _⟩ => ⟨S8000x2, .f32⟩
  | .local _ .vmem, ⟨27, _⟩ => ⟨S8000x2, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_1 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_3 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg8_0 : Ref sig .tc := ⟨.vmem, 23, rfl⟩
abbrev cc2_stg9_0 : Ref sig .tc := ⟨.vmem, 24, rfl⟩
abbrev cc2_stg10_0 : Ref sig .tc := ⟨.vmem, 25, rfl⟩
abbrev cc2_stg11_0 : Ref sig .tc := ⟨.vmem, 26, rfl⟩
abbrev cc2_stg11_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem8_0 : DmaSem sig := 23
abbrev cc2_sem9_0 : DmaSem sig := 24
abbrev cc2_sem10_0 : DmaSem sig := 25
abbrev cc2_sem11_0 : DmaSem sig := 26
abbrev cc2_sem11_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x11 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x11 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x11 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x11 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S11x11 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x11 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x11 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x11 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x11 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x11 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S11x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S11x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S11x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S11x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x2 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S8000x2 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  shapeCasts_S11_S1x11 : S11.ShapeCasts S1x11
  inb_S8000x2_S8000x2_0_0 : ∀ a, (![0, 0] : Fin 2 → Nat) a + S8000x2.size a ≤ S8000x2.size a
  h_S8000x2 : 0 < S8000x2.numel
  bitsLt_bf16_f32 : FTy.bits .bf16 < FTy.bits .f32
  inb_S2x11_S2x11_0_0 : ∀ a, (![0, 0] : Fin 2 → Nat) a + S2x11.size a ≤ S2x11.size a
  h_S2x11 : 0 < S2x11.numel
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S8000x11 : S1x11.Broadcasts S8000x11
  inb_S8000x11_S8000x11_0_0 : ∀ a, (![0, 0] : Fin 2 → Nat) a + S8000x11.size a ≤ S8000x11.size a
  h_S8000x11 : 0 < S8000x11.numel
  inb_S11x11_S11x11_0_0 : ∀ a, (![0, 0] : Fin 2 → Nat) a + S11x11.size a ≤ S11x11.size a
  h_S11x11 : 0 < S11x11.numel
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1000000x11 : S_.BroadcastsInDim S1000000x11 (![] : Fin 0 → Fin S1000000x11.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  shapeCasts_S64_S1x64 : S64.ShapeCasts S1x64
  shapeCasts_S2_S1x2 : S2.ShapeCasts S1x2
  shapeCasts_S8000x11_S8000x11 : S8000x11.ShapeCasts S8000x11
  inb_S11x64_S11x64_0_0 : ∀ a, (![0, 0] : Fin 2 → Nat) a + S11x64.size a ≤ S11x64.size a
  h_S11x64 : 0 < S11x64.numel
  inb_S64x2_S64x2_0_0 : ∀ a, (![0, 0] : Fin 2 → Nat) a + S64x2.size a ≤ S64x2.size a
  h_S64x2 : 0 < S64x2.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  slices_S8000x2_o0_0_S8000x1 : S8000x2.Slices ![0, 0] S8000x1
  slices_S8000x2_o0_1_S8000x1 : S8000x2.Slices ![0, 1] S8000x1
  inb_S8000x2_S8000x1_0_0 : ∀ a, (![0, 0] : Fin 2 → Nat) a + S8000x1.size a ≤ S8000x2.size a
  h_S8000x1 : 0 < S8000x1.numel
  inb_S8000x2_S8000x1_0_1 : ∀ a, (![0, 1] : Fin 2 → Nat) a + S8000x1.size a ≤ S8000x2.size a
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  dot_S8000x2_S2x11_S8000x11_1_0_0_1_n_n_wf : DotDims.WF S8000x2 S2x11 S8000x11 [1] [0] [0] [1] [] []
  dot_S8000x11_S11x11_S8000x11_1_0_0_1_n_n_wf : DotDims.WF S8000x11 S11x11 S8000x11 [1] [0] [0] [1] [] []
  gather_S200000x11_S2000000x1_S2000000x11_1_0_n_n_0_1_111_wf : GatherDims.WF S200000x11 S2000000x1 S2000000x11 [1] [0] [] [0] [] 1 ![1, 11]
  scatter_S1000000x11_S2000000x1_S2000000x11_1_0_0_1_wf : ScatterDims.WF S1000000x11 S2000000x1 S2000000x11 [1] [0] [0] 1
  gather_S1000000x11_S16000000x1_S16000000x11_1_0_n_n_0_1_111_wf : GatherDims.WF S1000000x11 S16000000x1 S16000000x11 [1] [0] [] [0] [] 1 ![1, 11]
  scatter_S1000000x11_S16000000x1_S16000000x11_1_0_0_1_wf : ScatterDims.WF S1000000x11 S16000000x1 S16000000x11 [1] [0] [0] 1
  dot_S8000x11_S11x64_S8000x64_1_0_0_1_n_n_wf : DotDims.WF S8000x11 S11x64 S8000x64 [1] [0] [0] [1] [] []
  dot_S8000x64_S64x2_S8000x2_1_0_0_1_n_n_wf : DotDims.WF S8000x64 S64x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x2.size a ≤ S1000000x2.size a
  hwx0_0 : ∀ i : grid0.Coords, EltTy.bits .f32 = 32 ∨ (Rect.block (s := S1000000x2) S8000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x11.size a ≤ S2x11.size a
  hwx0_1 : ∀ i : grid0.Coords, EltTy.bits .f32 = 32 ∨ (Rect.block (s := S2x11) S2x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x11.size a ≤ S1x11.size a
  hwx0_2 : ∀ i : grid0.Coords, EltTy.bits .f32 = 32 ∨ (Rect.block (s := S1x11) S1x11.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x11.size a ≤ S1000000x11.size a
  hwx0_3 : ∀ i : grid0.Coords, EltTy.bits .f32 = 32 ∨ (Rect.block (s := S1000000x11) S8000x11.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x11.size a ≤ S200000x11.size a
  hwx1_0 : ∀ i : grid1.Coords, EltTy.bits .f32 = 32 ∨ (Rect.block (s := S200000x11) S8000x11.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S11x11.size a ≤ S11x11.size a
  hwx1_1 : ∀ i : grid1.Coords, EltTy.bits .f32 = 32 ∨ (Rect.block (s := S11x11) S11x11.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x11.size a ≤ S1x11.size a
  hwx1_2 : ∀ i : grid1.Coords, EltTy.bits .f32 = 32 ∨ (Rect.block (s := S1x11) S1x11.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x11.size a ≤ S200000x11.size a
  hwx1_3 : ∀ i : grid1.Coords, EltTy.bits .f32 = 32 ∨ (Rect.block (s := S200000x11) S8000x11.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x11.size a ≤ S1000000x11.size a
  hwx2_0 : ∀ i : grid2.Coords, EltTy.bits .f32 = 32 ∨ (Rect.block (s := S1000000x11) S8000x11.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x11.size a ≤ S1000000x11.size a
  hwx2_1 : ∀ i : grid2.Coords, EltTy.bits .f32 = 32 ∨ (Rect.block (s := S1000000x11) S8000x11.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x11.size a ≤ S1000000x11.size a
  hwx2_2 : ∀ i : grid2.Coords, EltTy.bits .f32 = 32 ∨ (Rect.block (s := S1000000x11) S8000x11.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S11x64.size a ≤ S11x64.size a
  hwx2_3 : ∀ i : grid2.Coords, EltTy.bits .f32 = 32 ∨ (Rect.block (s := S11x64) S11x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S11x64.size a ≤ S11x64.size a
  hwx2_5 : ∀ i : grid2.Coords, EltTy.bits .f32 = 32 ∨ (Rect.block (s := S11x64) S11x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S11x64.size a ≤ S11x64.size a
  hwx2_6 : ∀ i : grid2.Coords, EltTy.bits .f32 = 32 ∨ (Rect.block (s := S11x64) S11x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S11x64.size a ≤ S11x64.size a
  hwx2_8 : ∀ i : grid2.Coords, EltTy.bits .f32 = 32 ∨ (Rect.block (s := S11x64) S11x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x2.size a ≤ S64x2.size a
  hwx2_9 : ∀ i : grid2.Coords, EltTy.bits .f32 = 32 ∨ (Rect.block (s := S64x2) S64x2.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x2.size a ≤ S1x2.size a
  hwx2_10 : ∀ i : grid2.Coords, EltTy.bits .f32 = 32 ∨ (Rect.block (s := S1x2) S1x2.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S8000x2.size a ≤ S1000000x2.size a
  hwx2_11 : ∀ i : grid2.Coords, EltTy.bits .f32 = 32 ∨ (Rect.block (s := S1000000x2) S8000x2.size (cc2_transform_11 i) (hinb2_11 i)).WholeWords (EltTy.packing .f32)

variable [Facts₀]

def dot_S8000x2_S2x11_S8000x11_1_0_0_1_n_n : DotDims S8000x2 S2x11 S8000x11 where
  lhsContracting := [1]
  rhsContracting := [0]
  lhsNonContracting := [0]
  rhsNonContracting := [1]
  lhsBatch := []
  rhsBatch := []
  wf := dot_S8000x2_S2x11_S8000x11_1_0_0_1_n_n_wf
def dot_S8000x11_S11x11_S8000x11_1_0_0_1_n_n : DotDims S8000x11 S11x11 S8000x11 where
  lhsContracting := [1]
  rhsContracting := [0]
  lhsNonContracting := [0]
  rhsNonContracting := [1]
  lhsBatch := []
  rhsBatch := []
  wf := dot_S8000x11_S11x11_S8000x11_1_0_0_1_n_n_wf
def gather_S200000x11_S2000000x1_S2000000x11_1_0_n_n_0_1_111 : GatherDims S200000x11 S2000000x1 S2000000x11 where
  offsetDims := [1]
  collapsedSliceDims := [0]
  operandBatchingDims := []
  startIndicesBatchingDims := []
  startIndexMap := [0]
  indexVectorDim := 1
  sliceSizes := ![1, 11]
  wf := gather_S200000x11_S2000000x1_S2000000x11_1_0_n_n_0_1_111_wf
def scatter_S1000000x11_S2000000x1_S2000000x11_1_0_0_1 : ScatterDims S1000000x11 S2000000x1 S2000000x11 where
  updateWindowDims := [1]
  insertedWindowDims := [0]
  scatterDimsToOperandDims := [0]
  indexVectorDim := 1
  wf := scatter_S1000000x11_S2000000x1_S2000000x11_1_0_0_1_wf
def gather_S1000000x11_S16000000x1_S16000000x11_1_0_n_n_0_1_111 : GatherDims S1000000x11 S16000000x1 S16000000x11 where
  offsetDims := [1]
  collapsedSliceDims := [0]
  operandBatchingDims := []
  startIndicesBatchingDims := []
  startIndexMap := [0]
  indexVectorDim := 1
  sliceSizes := ![1, 11]
  wf := gather_S1000000x11_S16000000x1_S16000000x11_1_0_n_n_0_1_111_wf
def scatter_S1000000x11_S16000000x1_S16000000x11_1_0_0_1 : ScatterDims S1000000x11 S16000000x1 S16000000x11 where
  updateWindowDims := [1]
  insertedWindowDims := [0]
  scatterDimsToOperandDims := [0]
  indexVectorDim := 1
  wf := scatter_S1000000x11_S16000000x1_S16000000x11_1_0_0_1_wf
def dot_S8000x11_S11x64_S8000x64_1_0_0_1_n_n : DotDims S8000x11 S11x64 S8000x64 where
  lhsContracting := [1]
  rhsContracting := [0]
  lhsNonContracting := [0]
  rhsNonContracting := [1]
  lhsBatch := []
  rhsBatch := []
  wf := dot_S8000x11_S11x64_S8000x64_1_0_0_1_n_n_wf
def dot_S8000x64_S64x2_S8000x2_1_0_0_1_n_n : DotDims S8000x64 S64x2 S8000x2 where
  lhsContracting := [1]
  rhsContracting := [0]
  lhsNonContracting := [0]
  rhsNonContracting := [1]
  lhsBatch := []
  rhsBatch := []
  wf := dot_S8000x64_S64x2_S8000x2_1_0_0_1_n_n_wf

abbrev win0_0 : Pipeline.Window sig grid0 :=
  Pipeline.Window.ofSpec (Memref.whole main_arg0) S8000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2x11.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x11.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x11.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8000x11.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S11x11.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x11.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S8000x11.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v13) S8000x11.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S8000x11.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S8000x11.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S11x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S11x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S11x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v25) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg15) S11x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg16) S64x2.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v26) S1x2.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v27) S8000x2.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S1000000x2 : Shape := ⟨2, ![1000000, 2]⟩
abbrev S200000x11 : Shape := ⟨2, ![200000, 11]⟩
abbrev S2000000 : Shape := ⟨1, ![2000000]⟩
abbrev S16000000 : Shape := ⟨1, ![16000000]⟩
abbrev S2x11 : Shape := ⟨2, ![2, 11]⟩
abbrev S11 : Shape := ⟨1, ![11]⟩
abbrev S11x11 : Shape := ⟨2, ![11, 11]⟩
abbrev S11x64 : Shape := ⟨2, ![11, 64]⟩
abbrev S64 : Shape := ⟨1, ![64]⟩
abbrev S64x2 : Shape := ⟨2, ![64, 2]⟩
abbrev S2 : Shape := ⟨1, ![2]⟩
abbrev S1000000x11 : Shape := ⟨2, ![1000000, 11]⟩
abbrev S1x11 : Shape := ⟨2, ![1, 11]⟩
abbrev S_ : Shape := ⟨0, ![]⟩
abbrev S2000000x1 : Shape := ⟨2, ![2000000, 1]⟩
abbrev S2000000x11 : Shape := ⟨2, ![2000000, 11]⟩
abbrev S16000000x1 : Shape := ⟨2, ![16000000, 1]⟩
abbrev S16000000x11 : Shape := ⟨2, ![16000000, 11]⟩
abbrev S1000000x64 : Shape := ⟨2, ![1000000, 64]⟩
abbrev S1x64 : Shape := ⟨2, ![1, 64]⟩
abbrev S1x2 : Shape := ⟨2, ![1, 2]⟩
abbrev S1000000x1 : Shape := ⟨2, ![1000000, 1]⟩
abbrev S1000000 : Shape := ⟨1, ![1000000]⟩

abbrev nBuf : Space → Nat
  | .hbm => 94
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S200000x11, .f32⟩
  | .hbm, ⟨2, _⟩ => ⟨S2000000, .i32⟩
  | .hbm, ⟨3, _⟩ => ⟨S2000000, .i32⟩
  | .hbm, ⟨4, _⟩ => ⟨S16000000, .i32⟩
  | .hbm, ⟨5, _⟩ => ⟨S16000000, .i32⟩
  | .hbm, ⟨6, _⟩ => ⟨S2x11, .f32⟩
  | .hbm, ⟨7, _⟩ => ⟨S11, .f32⟩
  | .hbm, ⟨8, _⟩ => ⟨S11x11, .f32⟩
  | .hbm, ⟨9, _⟩ => ⟨S11, .f32⟩
  | .hbm, ⟨10, _⟩ => ⟨S11x64, .f32⟩
  | .hbm, ⟨11, _⟩ => ⟨S64, .f32⟩
  | .hbm, ⟨12, _⟩ => ⟨S11x64, .f32⟩
  | .hbm, ⟨13, _⟩ => ⟨S11x64, .f32⟩
  | .hbm, ⟨14, _⟩ => ⟨S64, .f32⟩
  | .hbm, ⟨15, _⟩ => ⟨S11x64, .f32⟩
  | .hbm, ⟨16, _⟩ => ⟨S64x2, .f32⟩
  | .hbm, ⟨17, _⟩ => ⟨S2, .f32⟩
  | .hbm, ⟨18, _⟩ => ⟨S1000000x11, .f32⟩
  | .hbm, ⟨19, _⟩ => ⟨S1x11, .f32⟩
  | .hbm, ⟨20, _⟩ => ⟨S1000000x11, .f32⟩
  | .hbm, ⟨21, _⟩ => ⟨S1000000x11, .f32⟩
  | .hbm, ⟨22, _⟩ => ⟨S200000x11, .f32⟩
  | .hbm, ⟨23, _⟩ => ⟨S1x11, .f32⟩
  | .hbm, ⟨24, _⟩ => ⟨S200000x11, .f32⟩
  | .hbm, ⟨25, _⟩ => ⟨S200000x11, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x11, .f32⟩
  | .hbm, ⟨35, _⟩ => ⟨S_, .f32⟩
  | .hbm, ⟨36, _⟩ => ⟨S1000000x11, .f32⟩
  | .hbm, ⟨37, _⟩ => ⟨S2000000x1, .i32⟩
  | .hbm, ⟨38, _⟩ => ⟨S1000000x11, .f32⟩
  | .hbm, ⟨39, _⟩ => ⟨S_, .i32⟩
  | .hbm, ⟨40, _⟩ => ⟨S16000000, .i32⟩
  | .hbm, ⟨41, _⟩ => ⟨S16000000, .i1⟩
  | .hbm, ⟨42, _⟩ => ⟨S_, .i32⟩
  | .hbm, ⟨43, _⟩ => ⟨S16000000, .i32⟩
  | .hbm, ⟨44, _⟩ => ⟨S16000000, .i32⟩
  | .hbm, ⟨45, _⟩ => ⟨S16000000, .i32⟩
  | .hbm, ⟨46, _⟩ => ⟨S16000000x1, .i32⟩
  | .hbm, ⟨47, _⟩ => ⟨S16000000x11, .f32⟩
  | .hbm, ⟨48, _⟩ => ⟨S_, .f32⟩
  | .hbm, ⟨49, _⟩ => ⟨S1000000x11, .f32⟩
  | .hbm, ⟨50, _⟩ => ⟨S16000000x1, .i32⟩
  | .hbm, ⟨51, _⟩ => ⟨S1000000x11, .f32⟩
  | .hbm, ⟨52, _⟩ => ⟨S1000000x64, .f32⟩
  | .hbm, ⟨53, _⟩ => ⟨S1x64, .f32⟩
  | .hbm, ⟨54, _⟩ => ⟨S1000000x64, .f32⟩
  | .hbm, ⟨55, _⟩ => ⟨S1000000x64, .f32⟩
  | .hbm, ⟨56, _⟩ => ⟨S1000000x64, .f32⟩
  | .hbm, ⟨57, _⟩ => ⟨S1000000x64, .f32⟩
  | .hbm, ⟨58, _⟩ => ⟨S1000000x64, .f32⟩
  | .hbm, ⟨59, _⟩ => ⟨S1000000x64, .f32⟩
  | .hbm, ⟨60, _⟩ => ⟨S1x64, .f32⟩
  | .hbm, ⟨61, _⟩ => ⟨S1000000x64, .f32⟩
  | .hbm, ⟨62, _⟩ => ⟨S1000000x64, .f32⟩
  | .hbm, ⟨63, _⟩ => ⟨S1000000x64, .f32⟩
  | .hbm, ⟨64, _⟩ => ⟨S1000000x64, .f32⟩
  | .hbm, ⟨65, _⟩ => ⟨S1000000x2, .f32⟩
  | .hbm, ⟨66, _⟩ => ⟨S1x2, .f32⟩
  | .hbm, ⟨67, _⟩ => ⟨S1000000x2, .f32⟩
  | .hbm, ⟨68, _⟩ => ⟨S1000000x2, .f32⟩
  | .hbm, ⟨69, _⟩ => ⟨S1000000x1, .f32⟩
  | .hbm, ⟨70, _⟩ => ⟨S1000000, .f32⟩
  | .hbm, ⟨71, _⟩ => ⟨S1000000x1, .f32⟩
  | .hbm, ⟨72, _⟩ => ⟨S1000000, .f32⟩
  | .hbm, ⟨73, _⟩ => ⟨S_, .f32⟩
  | .hbm, ⟨74, _⟩ => ⟨S1000000, .f32⟩
  | .hbm, ⟨75, _⟩ => ⟨S1000000, .f32⟩
  | .hbm, ⟨76, _⟩ => ⟨S_, .f32⟩
  | .hbm, ⟨77, _⟩ => ⟨S1000000, .f32⟩
  | .hbm, ⟨78, _⟩ => ⟨S1000000, .f32⟩
  | .hbm, ⟨79, _⟩ => ⟨S1000000, .f32⟩
  | .hbm, ⟨80, _⟩ => ⟨S1000000, .f32⟩
  | .hbm, ⟨81, _⟩ => ⟨S1000000, .i1⟩
  | .hbm, ⟨82, _⟩ => ⟨S1000000, .f32⟩
  | .hbm, ⟨83, _⟩ => ⟨S1000000, .f32⟩
  | .hbm, ⟨84, _⟩ => ⟨S1000000, .f32⟩
  | .hbm, ⟨85, _⟩ => ⟨S1000000, .f32⟩
  | .hbm, ⟨86, _⟩ => ⟨S1000000, .f32⟩
  | .hbm, ⟨87, _⟩ => ⟨S1000000, .f32⟩
  | .hbm, ⟨88, _⟩ => ⟨S1000000, .f32⟩
  | .hbm, ⟨89, _⟩ => ⟨S1000000, .f32⟩
  | .hbm, ⟨90, _⟩ => ⟨S_, .f32⟩
  | .hbm, ⟨91, _⟩ => ⟨S_, .f32⟩
  | .hbm, ⟨92, _⟩ => ⟨S1000000, .f32⟩
  | .hbm, ⟨93, _⟩ => ⟨S1000000, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c : Ref sig .tc := ⟨.hbm, 26, rfl⟩
abbrev main_v8 : Ref sig .tc := ⟨.hbm, 27, rfl⟩
abbrev main_v9 : Ref sig .tc := ⟨.hbm, 28, rfl⟩
abbrev main_c_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_c_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v51 : Ref sig .tc := ⟨.hbm, 89, rfl⟩
abbrev main_cst_5 : Ref sig .tc := ⟨.hbm, 90, rfl⟩
abbrev main_call1_v0 : Ref sig .tc := ⟨.hbm, 91, rfl⟩
abbrev main_call1_v1 : Ref sig .tc := ⟨.hbm, 92, rfl⟩
abbrev main_v52 : Ref sig .tc := ⟨.hbm, 93, rfl⟩

abbrev nD : Nat := 1
abbrev τ : Topo := Topo.v7x

variable {F : FTy → Type} [FloatOps F]

class Facts₀ : Prop where
  bcast_S11_S1x11_1 : S11.BroadcastsInDim S1x11 (![1] : Fin 1 → Fin S1x11.rank)
  bcast_S1x11_S1000000x11_0_1 : S1x11.BroadcastsInDim S1000000x11 (![0, 1] : Fin 2 → Fin S1000000x11.rank)
  bcast_S1x11_S200000x11_0_1 : S1x11.BroadcastsInDim S200000x11 (![0, 1] : Fin 2 → Fin S200000x11.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S1000000x11 : S_.BroadcastsInDim S1000000x11 (![] : Fin 0 → Fin S1000000x11.rank)
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S2_S1x2_1 : S2.BroadcastsInDim S1x2 (![1] : Fin 1 → Fin S1x2.rank)
  bcast_S1x2_S1000000x2_0_1 : S1x2.BroadcastsInDim S1000000x2 (![0, 1] : Fin 2 → Fin S1000000x2.rank)
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  dot_S1000000x2_S2x11_S1000000x11_1_0_0_1_n_n_wf : DotDims.WF S1000000x2 S2x11 S1000000x11 [1] [0] [0] [1] [] []
  dot_S200000x11_S11x11_S200000x11_1_0_0_1_n_n_wf : DotDims.WF S200000x11 S11x11 S200000x11 [1] [0] [0] [1] [] []
  gather_S200000x11_S2000000x1_S2000000x11_1_0_n_n_0_1_111_wf : GatherDims.WF S200000x11 S2000000x1 S2000000x11 [1] [0] [] [0] [] 1 ![1, 11]
  scatter_S1000000x11_S2000000x1_S2000000x11_1_0_0_1_wf : ScatterDims.WF S1000000x11 S2000000x1 S2000000x11 [1] [0] [0] 1
  gather_S1000000x11_S16000000x1_S16000000x11_1_0_n_n_0_1_111_wf : GatherDims.WF S1000000x11 S16000000x1 S16000000x11 [1] [0] [] [0] [] 1 ![1, 11]
  scatter_S1000000x11_S16000000x1_S16000000x11_1_0_0_1_wf : ScatterDims.WF S1000000x11 S16000000x1 S16000000x11 [1] [0] [0] 1
  dot_S1000000x11_S11x64_S1000000x64_1_0_0_1_n_n_wf : DotDims.WF S1000000x11 S11x64 S1000000x64 [1] [0] [0] [1] [] []
  dot_S1000000x64_S64x2_S1000000x2_1_0_0_1_n_n_wf : DotDims.WF S1000000x64 S64x2 S1000000x2 [1] [0] [0] [1] [] []

variable [Facts₀]

def dot_S1000000x2_S2x11_S1000000x11_1_0_0_1_n_n : DotDims S1000000x2 S2x11 S1000000x11 where
  lhsContracting := [1]
  rhsContracting := [0]
  lhsNonContracting := [0]
  rhsNonContracting := [1]
  lhsBatch := []
  rhsBatch := []
  wf := dot_S1000000x2_S2x11_S1000000x11_1_0_0_1_n_n_wf
def dot_S200000x11_S11x11_S200000x11_1_0_0_1_n_n : DotDims S200000x11 S11x11 S200000x11 where
  lhsContracting := [1]
  rhsContracting := [0]
  lhsNonContracting := [0]
  rhsNonContracting := [1]
  lhsBatch := []
  rhsBatch := []
  wf := dot_S200000x11_S11x11_S200000x11_1_0_0_1_n_n_wf
def gather_S200000x11_S2000000x1_S2000000x11_1_0_n_n_0_1_111 : GatherDims S200000x11 S2000000x1 S2000000x11 where
  offsetDims := [1]
  collapsedSliceDims := [0]
  operandBatchingDims := []
  startIndicesBatchingDims := []
  startIndexMap := [0]
  indexVectorDim := 1
  sliceSizes := ![1, 11]
  wf := gather_S200000x11_S2000000x1_S2000000x11_1_0_n_n_0_1_111_wf
def scatter_S1000000x11_S2000000x1_S2000000x11_1_0_0_1 : ScatterDims S1000000x11 S2000000x1 S2000000x11 where
  updateWindowDims := [1]
  insertedWindowDims := [0]
  scatterDimsToOperandDims := [0]
  indexVectorDim := 1
  wf := scatter_S1000000x11_S2000000x1_S2000000x11_1_0_0_1_wf
def gather_S1000000x11_S16000000x1_S16000000x11_1_0_n_n_0_1_111 : GatherDims S1000000x11 S16000000x1 S16000000x11 where
  offsetDims := [1]
  collapsedSliceDims := [0]
  operandBatchingDims := []
  startIndicesBatchingDims := []
  startIndexMap := [0]
  indexVectorDim := 1
  sliceSizes := ![1, 11]
  wf := gather_S1000000x11_S16000000x1_S16000000x11_1_0_n_n_0_1_111_wf
def scatter_S1000000x11_S16000000x1_S16000000x11_1_0_0_1 : ScatterDims S1000000x11 S16000000x1 S16000000x11 where
  updateWindowDims := [1]
  insertedWindowDims := [0]
  scatterDimsToOperandDims := [0]
  indexVectorDim := 1
  wf := scatter_S1000000x11_S16000000x1_S16000000x11_1_0_0_1_wf
def dot_S1000000x11_S11x64_S1000000x64_1_0_0_1_n_n : DotDims S1000000x11 S11x64 S1000000x64 where
  lhsContracting := [1]
  rhsContracting := [0]
  lhsNonContracting := [0]
  rhsNonContracting := [1]
  lhsBatch := []
  rhsBatch := []
  wf := dot_S1000000x11_S11x64_S1000000x64_1_0_0_1_n_n_wf
def dot_S1000000x64_S64x2_S1000000x2_1_0_0_1_n_n : DotDims S1000000x64 S64x2 S1000000x2 where
  lhsContracting := [1]
  rhsContracting := [0]
  lhsNonContracting := [0]
  rhsNonContracting := [1]
  lhsBatch := []
  rhsBatch := []
  wf := dot_S1000000x64_S64x2_S1000000x2_1_0_0_1_n_n_wf

class Facts : Prop extends Facts₀ where

variable [Facts]
-- ==== Proof.KernelRun.lean ====
/-
  The idealized kernel's whole run, with every buffer named at the end.

  The program is seven segments: a stretch of host operations, the first projection kernel over its 125 row
  blocks, a stretch, the second projection kernel over its 25 row blocks, the long stretch that gathers and
  scatter-adds along the two edge lists, the combining kernel over its 125 row blocks, and the closing stretch
  that cuts the two result columns out. The buffer contents at each boundary are a fold from the launch memory
  (`Gen.W0` … `Gen.W7`). Every weakly fair execution terminates without a fault with each unscoped buffer of
  core `c` at `Gen.W7 m ρ c`: the segments' run, read against the final state buffer by buffer.
-/
import proofs.«168928_j48232482734726_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A buffer of the program that no kernel scopes is among those the run names. -/
theorem at_end {r : PUnit × MemSt nD τ sig (Elt F)}
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.Whole

end
-- ==== Proof.LibMatmulSum.lean ====
/-
  A matrix product read at an entry, at the ideal values.

  For a product of an R-by-K matrix with a K-by-N matrix that contracts the left operand's second axis with the
  right operand's first, the entry at row r and column c is the plain sum over k of left[r,k] * right[k,c]:
  whether the product is the kernel's accumulate-into-zero or the host's, and whatever the element formats (a
  change of format is the identity on extended reals). The dimension record says which coordinate of each
  operand index comes from the output index and which from the contraction index; those four facts are the
  hypotheses, and re-indexing the contraction index by its single coordinate gives the sum over `Fin K`.
-/
import Idealize.ShloMosaic.PureOps.Ideal.Laws
import Idealize.ShloMosaic.Lib.ValueIdx

noncomputable section

namespace Cert.GraphConv

open Idealize.ShloMosaic Idealize.ShloMosaic.ValueIdx

variable {R K N : ℕ} {φ₁ φ₂ : FTy}

/-- The operand indices of a row-by-column product, from the four coordinate facts of its dimension record. -/
theorem dot_operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (i : (⟨2, ![R, N]⟩ : Shape).Idx) (k : Fin K) :
    D.lhsIdx i ((contrEquiv1 D K hr hs).symm k) = ix2 (i 0) k
      ∧ D.rhsIdx i ((contrEquiv1 D K hr hs).symm k) = ix2 k (i 1) := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- A kernel's matrix product into a zero accumulator, read at an entry: the sum over k of the operands' products. -/
theorem matmul_zero_sum (D : DotDims ⟨2, ![R, K]⟩ ⟨2, ![K, N]⟩ ⟨2, ![R, N]⟩) (prec : Option ContractPrecision)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.matmul D prec l r (constant (F := Ideal) ⟨2, ![R, N]⟩ .f32 0x00000000#32) i
      = ∑ k : Fin K, l (ix2 (i 0) k) * r (ix2 k (i 1)) := by
  rw [Ideal.matmul_constant_zero_apply, ← Equiv.sum_comp (contrEquiv1 D K hr hs).symm]
  refine Finset.sum_congr rfl fun k _ => ?_
  obtain ⟨el, er⟩ := dot_operand_indices D hr hs hl0 hl1 hr0 hr1 i k
  rw [el, er]
  rfl

/-- The host's matrix product read at an entry: the same sum. -/
theorem dotGeneral_sum (D : DotDims ⟨2, ![R, K]⟩ ⟨2, ![K, N]⟩ ⟨2, ![R, N]⟩) (prec : Option ContractPrecision) (sched : HostSchedule)
    (hr : D.contr.rank = 1) (hs : D.contr.size ⟨0, by omega⟩ = K)
    (hl0 : ∀ (i : (⟨2, ![R, N]⟩ : Shape).Idx) (q : D.contr.Idx), (D.lhsIdx i q 0).val = (i 0).val)
    (hl1 : ∀ (i : (⟨2, ![R, N]⟩ : Shape).Idx) (q : D.contr.Idx), (D.lhsIdx i q 1).val = (q ⟨0, by omega⟩).val)
    (hr0 : ∀ (i : (⟨2, ![R, N]⟩ : Shape).Idx) (q : D.contr.Idx), (D.rhsIdx i q 0).val = (q ⟨0, by omega⟩).val)
    (hr1 : ∀ (i : (⟨2, ![R, N]⟩ : Shape).Idx) (q : D.contr.Idx), (D.rhsIdx i q 1).val = (i 1).val)
    (l : FVec Ideal ⟨2, ![R, K]⟩ φ₁) (r : FVec Ideal ⟨2, ![K, N]⟩ φ₂) (i : (⟨2, ![R, N]⟩ : Shape).Idx) :
    FloatOps.dotGeneral D prec sched l r i
      = ∑ k : Fin K, l (ix2 (i 0) k) * r (ix2 k (i 1)) := by
  rw [Ideal.dotGeneral_apply, ← Equiv.sum_comp (contrEquiv1 D K hr hs).symm]
  refine Finset.sum_congr rfl fun k _ => ?_
  obtain ⟨el, er⟩ := dot_operand_indices D hr hs hl0 hl1 hr0 hr1 i k
  rw [el, er]
  rfl

end Cert.GraphConv

end
-- ==== Proof.LibDenseSpec.lean ====
/-
  The three dense stages of the two-layer graph convolution network, as whole-array functions on extended reals.

  A node-feature matrix `A` of `R` rows is mapped row by row, so a stage's entry at row `r` depends on row `r`
  of its input only:
    * `linear X W`            — the product `X · W`;
    * `reluLinear A b W`      — `relu (A + b) · W`, the bias `b` added to every row;
    * `reluLinearLogistic A b W β` — `σ (relu (A + b) · W + β)`, with `σ t = 1 / (1 + e⁻ᵗ)`.
  The zero of the rectifier is kept as the all-zero 32-bit word read at the ideal values: the same word stands on both
  sides of every equation below and is never evaluated.
-/
import Idealize.ShloMosaic.PureOps.Ideal
import Idealize.ShloMosaic.Lib.ValueIdx

noncomputable section

namespace Cert.Gcn

open Idealize.ShloMosaic Idealize.ShloMosaic.ValueIdx

variable {R K N : ℕ}

/-- The matrix product: entry `(r, c)` is the sum over `k` of `X[r,k] * W[k,c]`. -/
def linear (X : FVec Ideal ⟨2, ![R, K]⟩ .f32) (W : FVec Ideal ⟨2, ![K, N]⟩ .f32) : FVec Ideal ⟨2, ![R, N]⟩ .f32 :=
  fun i => ∑ k : Fin K, X (ix2 (i 0) k) * W (ix2 k (i 1))

/-- A row bias added and the rectifier applied, entry by entry. -/
def biasRelu (A : FVec Ideal ⟨2, ![R, K]⟩ .f32) (b : FVec Ideal ⟨1, ![K]⟩ .f32) : FVec Ideal ⟨2, ![R, K]⟩ .f32 :=
  fun i => max (A i + b (ix1 (i 1))) (Ideal.ofBits .f32 0x00000000#32)

/-- `relu (A + b) · W`. -/
def reluLinear (A : FVec Ideal ⟨2, ![R, K]⟩ .f32) (b : FVec Ideal ⟨1, ![K]⟩ .f32) (W : FVec Ideal ⟨2, ![K, N]⟩ .f32) :
    FVec Ideal ⟨2, ![R, N]⟩ .f32 :=
  linear (biasRelu A b) W

/-- `σ (relu (A + b) · W + β)` for a one-column `W` and a one-entry `β`. -/
def reluLinearLogistic (A : FVec Ideal ⟨2, ![R, K]⟩ .f32) (b : FVec Ideal ⟨1, ![K]⟩ .f32) (W : FVec Ideal ⟨2, ![K, 1]⟩ .f32)
    (β : FVec Ideal ⟨1, ![1]⟩ .f32) : FVec Ideal ⟨2, ![R, 1]⟩ .f32 :=
  fun i => Ideal.logistic (reluLinear A b W i + β (ix1 (0 : Fin 1)))

theorem linear_ix2 (X : FVec Ideal ⟨2, ![R, K]⟩ .f32) (W : FVec Ideal ⟨2, ![K, N]⟩ .f32) (r : Fin R) (c : Fin N) :
    linear X W (ix2 r c) = ∑ k : Fin K, X (ix2 r k) * W (ix2 k c) := rfl

theorem biasRelu_ix2 (A : FVec Ideal ⟨2, ![R, K]⟩ .f32) (b : FVec Ideal ⟨1, ![K]⟩ .f32) (r : Fin R) (k : Fin K) :
    biasRelu A b (ix2 r k) = max (A (ix2 r k) + b (ix1 k)) (Ideal.ofBits .f32 0x00000000#32) := rfl

/-- Two inputs that agree on row `r` give the same product row. -/
theorem linear_congr_row (X X' : FVec Ideal ⟨2, ![R, K]⟩ .f32) (W : FVec Ideal ⟨2, ![K, N]⟩ .f32) (r : Fin R) (c : Fin N)
    (h : ∀ k : Fin K, X (ix2 r k) = X' (ix2 r k)) : linear X W (ix2 r c) = linear X' W (ix2 r c) := by
  rw [linear_ix2, linear_ix2]
  exact Finset.sum_congr rfl fun k _ => by rw [h k]

end Cert.Gcn

end
-- ==== Proof.LibBiasRow.lean ====
/-
  A bias row added to every row of a matrix inside a kernel, read at an entry, at the ideal values.

  The bias arrives as a one-row matrix `[1, K]`. The kernel re-casts both operands to their own shapes (the identity),
  broadcasts the row down the `R` rows, adds, and — for a layer with a rectifier — takes the maximum with a splat zero.
  At entry `(p, k)` that is `A[p,k] + b[0,k]`, respectively `max (A[p,k] + b[0,k]) 0`, the `0` being the all-zero word, which
  is never evaluated. `rowOf` reads the one-row matrix as the vector of its row, so that the result is `biasRelu A (rowOf b)`
  (or `addBias A (rowOf b)`) in the vocabulary of the dense stages; the row of a vector re-cast to one row is the vector.
-/
import proofs.«168928_j48232482734726_2_alg».proof.Proof.LibDenseSpec
import Idealize.ShloMosaic.Lib.Pipeline.Value
import Idealize.ShloMosaic.Lib.ValueIdx
import Idealize.ShloMosaic.Lib.ValueLayout

noncomputable section

namespace Cert.Gcn

open Idealize.ShloMosaic Idealize.ShloMosaic.ValueIdx

variable {R K : ℕ}

/-- A row bias added, entry by entry (a layer without a rectifier). -/
def addBias (A : FVec Ideal ⟨2, ![R, K]⟩ .f32) (b : FVec Ideal ⟨1, ![K]⟩ .f32) : FVec Ideal ⟨2, ![R, K]⟩ .f32 :=
  fun i => A i + b (ix1 (i 1))

theorem addBias_ix2 (A : FVec Ideal ⟨2, ![R, K]⟩ .f32) (b : FVec Ideal ⟨1, ![K]⟩ .f32) (r : Fin R) (k : Fin K) :
    addBias A b (ix2 r k) = A (ix2 r k) + b (ix1 k) := rfl

/-- The row of a one-row matrix, as a vector. -/
def rowOf {α : Type} (b : (⟨2, ![1, K]⟩ : Shape).Idx → α) : (⟨1, ![K]⟩ : Shape).Idx → α := fun j => b (ix2 (0 : Fin 1) (j 0))

theorem rowOf_ix1 {α : Type} (b : (⟨2, ![1, K]⟩ : Shape).Idx → α) (k : Fin K) : rowOf b (ix1 k) = b (ix2 (0 : Fin 1) k) := rfl

/-- The row of a vector re-cast to a one-row matrix is the vector. -/
theorem rowOf_shapeCast {α : Type} (b : (⟨1, ![K]⟩ : Shape).Idx → α) (h : (⟨1, ![K]⟩ : Shape).ShapeCasts ⟨2, ![1, K]⟩) :
    rowOf (shapeCast ⟨2, ![1, K]⟩ b h) = b := by
  funext j
  obtain ⟨k, rfl⟩ : ∃ k : Fin K, j = ix1 k := ⟨j 0, eq_ix1 j⟩
  rw [rowOf_ix1, shapeCast_a_1a_apply]

/-- A kernel's `relu (A + b)` with the bias as a one-row block, at entry `(p, k)`. -/
theorem biasRelu_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    maximumf (addf (shapeCast ⟨2, ![R, K]⟩ x0 h1) (broadcastTo ⟨2, ![R, K]⟩ (shapeCast ⟨2, ![1, K]⟩ x1 h2) h3))
        (broadcast ⟨2, ![R, K]⟩ (Scalar.ofBits (F := Ideal) .f32 0x00000000#32)) (ix2 p k)
      = biasRelu x0 (rowOf x1) (ix2 p k) := by
  rw [biasRelu_ix2, rowOf_ix1, maximumf_apply, addf_apply, broadcast_apply, shapeCast_self, shapeCast_self, broadcastTo_1b_ab_apply]
  rfl

/-- A kernel's `A + b` with the bias as a one-row block, at entry `(p, k)`. -/
theorem addBias_rowBlock (x0 : FVec Ideal ⟨2, ![R, K]⟩ .f32) (x1 : FVec Ideal ⟨2, ![1, K]⟩ .f32)
    (h1 : (⟨2, ![R, K]⟩ : Shape).ShapeCasts ⟨2, ![R, K]⟩) (h2 : (⟨2, ![1, K]⟩ : Shape).ShapeCasts ⟨2, ![1, K]⟩)
    (h3 : (⟨2, ![1, K]⟩ : Shape).Broadcasts ⟨2, ![R, K]⟩) (p : Fin R) (k : Fin K) :
    addf (shapeCast ⟨2, ![R, K]⟩ x0 h1) (broadcastTo ⟨2, ![R, K]⟩ (shapeCast ⟨2, ![1, K]⟩ x1 h2) h3) (ix2 p k)
      = addBias x0 (rowOf x1) (ix2 p k) := by
  rw [addBias_ix2, rowOf_ix1, addf_apply, shapeCast_self, shapeCast_self, broadcastTo_1b_ab_apply]

end Cert.Gcn

end
-- ==== Proof.ProjBlocks.lean ====
/-
  The two projection kernels on one block of 8000 rows, at the ideal values.

  Each takes a block `X` of rows, a weight matrix `W` and a bias given as a one-row matrix `b`, rounds `X` and `W`
  to a narrower format (the identity on extended reals), multiplies them into a zero accumulator and adds the bias
  row to every row. Entry `(p, q)` of what it stores is therefore `(∑ k, X[p,k] · W[k,q]) + b[0,q]`: the product
  `linear X W` with the bias row `rowOf b` added.
-/
import proofs.«168928_j48232482734726_2_alg».proof.Proof.Gen.KernelIdeal.Skeleton
import proofs.«168928_j48232482734726_2_alg».proof.Proof.LibMatmulSum
import proofs.«168928_j48232482734726_2_alg».proof.Proof.LibBiasRow
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx Cert.Gcn Cert.GraphConv

/-! ## Which coordinate of each operand a product's output and contraction indices supply -/

theorem dA_l0 (i : S8000x11.Idx) (q : dot_S8000x2_S2x11_S8000x11_1_0_0_1_n_n.contr.Idx) : (dot_S8000x2_S2x11_S8000x11_1_0_0_1_n_n.lhsIdx i q 0).val = (i 0).val := by
  unfold DotDims.lhsIdx
  rw [dif_neg (show ¬(0 : Fin S8000x2.rank) ∈ dot_S8000x2_S2x11_S8000x11_1_0_0_1_n_n.lhsBatch by decide), dif_pos (show (0 : Fin S8000x2.rank) ∈ dot_S8000x2_S2x11_S8000x11_1_0_0_1_n_n.lhsNonContracting by decide)]
  rfl
theorem dA_l1 (i : S8000x11.Idx) (q : dot_S8000x2_S2x11_S8000x11_1_0_0_1_n_n.contr.Idx) : (dot_S8000x2_S2x11_S8000x11_1_0_0_1_n_n.lhsIdx i q 1).val = (q ⟨0, by decide⟩).val :=
  dot_S8000x2_S2x11_S8000x11_1_0_0_1_n_n.lhsIdx_val_of_single rfl i q
theorem dA_r0 (i : S8000x11.Idx) (q : dot_S8000x2_S2x11_S8000x11_1_0_0_1_n_n.contr.Idx) : (dot_S8000x2_S2x11_S8000x11_1_0_0_1_n_n.rhsIdx i q 0).val = (q ⟨0, by decide⟩).val :=
  dot_S8000x2_S2x11_S8000x11_1_0_0_1_n_n.rhsIdx_val_of_single rfl i q
theorem dA_r1 (i : S8000x11.Idx) (q : dot_S8000x2_S2x11_S8000x11_1_0_0_1_n_n.contr.Idx) : (dot_S8000x2_S2x11_S8000x11_1_0_0_1_n_n.rhsIdx i q 1).val = (i 1).val := by
  unfold DotDims.rhsIdx
  rw [dif_neg (show ¬(1 : Fin S2x11.rank) ∈ dot_S8000x2_S2x11_S8000x11_1_0_0_1_n_n.rhsBatch by decide), dif_pos (show (1 : Fin S2x11.rank) ∈ dot_S8000x2_S2x11_S8000x11_1_0_0_1_n_n.rhsNonContracting by decide)]
  rfl

theorem dB_l0 (i : S8000x11.Idx) (q : dot_S8000x11_S11x11_S8000x11_1_0_0_1_n_n.contr.Idx) : (dot_S8000x11_S11x11_S8000x11_1_0_0_1_n_n.lhsIdx i q 0).val = (i 0).val := by
  unfold DotDims.lhsIdx
  rw [dif_neg (show ¬(0 : Fin S8000x11.rank) ∈ dot_S8000x11_S11x11_S8000x11_1_0_0_1_n_n.lhsBatch by decide), dif_pos (show (0 : Fin S8000x11.rank) ∈ dot_S8000x11_S11x11_S8000x11_1_0_0_1_n_n.lhsNonContracting by decide)]
  rfl
theorem dB_l1 (i : S8000x11.Idx) (q : dot_S8000x11_S11x11_S8000x11_1_0_0_1_n_n.contr.Idx) : (dot_S8000x11_S11x11_S8000x11_1_0_0_1_n_n.lhsIdx i q 1).val = (q ⟨0, by decide⟩).val :=
  dot_S8000x11_S11x11_S8000x11_1_0_0_1_n_n.lhsIdx_val_of_single rfl i q
theorem dB_r0 (i : S8000x11.Idx) (q : dot_S8000x11_S11x11_S8000x11_1_0_0_1_n_n.contr.Idx) : (dot_S8000x11_S11x11_S8000x11_1_0_0_1_n_n.rhsIdx i q 0).val = (q ⟨0, by decide⟩).val :=
  dot_S8000x11_S11x11_S8000x11_1_0_0_1_n_n.rhsIdx_val_of_single rfl i q
theorem dB_r1 (i : S8000x11.Idx) (q : dot_S8000x11_S11x11_S8000x11_1_0_0_1_n_n.contr.Idx) : (dot_S8000x11_S11x11_S8000x11_1_0_0_1_n_n.rhsIdx i q 1).val = (i 1).val := by
  unfold DotDims.rhsIdx
  rw [dif_neg (show ¬(1 : Fin S11x11.rank) ∈ dot_S8000x11_S11x11_S8000x11_1_0_0_1_n_n.rhsBatch by decide), dif_pos (show (1 : Fin S11x11.rank) ∈ dot_S8000x11_S11x11_S8000x11_1_0_0_1_n_n.rhsNonContracting by decide)]
  rfl

/-! ## The stored blocks -/

/-- The joint projection's block: `X · W + b` at entry `(p, q)`. -/
theorem projJoint_entry (v0 : Vec Ideal S8000x2 .f32) (v2 : Vec Ideal S2x11 .f32) (v5 : Vec Ideal S1x11 .f32)
    (p : Fin 8000) (q : Fin 11) :
    k0_pay1 (F := Ideal) v0 v2 v5 (ix2 p q) = addBias (linear v0 v2) (rowOf v5) (ix2 p q) := by
  unfold k0_pay1
  rw [addBias_ix2, linear_ix2, rowOf_ix1, addf_apply, broadcastTo_1b_ab_apply, shapeCast_self]
  refine congrArg (· + v5 (ix2 (0 : Fin 1) q)) ?_
  exact matmul_zero_sum dot_S8000x2_S2x11_S8000x11_1_0_0_1_n_n none rfl rfl dA_l0 dA_l1 dA_r0 dA_r1 _ _ (ix2 p q)

/-- The torso projection's block: `X · W + b` at entry `(p, q)`. -/
theorem projTorso_entry (v0 : Vec Ideal S8000x11 .f32) (v2 : Vec Ideal S11x11 .f32) (v5 : Vec Ideal S1x11 .f32)
    (p : Fin 8000) (q : Fin 11) :
    k1_pay1 (F := Ideal) v0 v2 v5 (ix2 p q) = addBias (linear v0 v2) (rowOf v5) (ix2 p q) := by
  unfold k1_pay1
  rw [addBias_ix2, linear_ix2, rowOf_ix1, addf_apply, broadcastTo_1b_ab_apply, shapeCast_self]
  refine congrArg (· + v5 (ix2 (0 : Fin 1) q)) ?_
  exact matmul_zero_sum dot_S8000x11_S11x11_S8000x11_1_0_0_1_n_n none rfl rfl dB_l0 dB_l1 dB_r0 dB_r1 _ _ (ix2 p q)

end Cert.KernelIdeal.Blocks

end
-- ==== Proof.JointArray.lean ====
/-
  The joint projection's result array: the first kernel's blocks put together.

  The kernel runs over 125 grid points; point `t` reads rows `8000·t … 8000·t + 7999` of `X`, the whole weight
  matrix and the whole one-row bias, and writes back the same rows of the result. The blocks tile the result array, so
  after the region it holds, at every index, `(∑ k, X[r,k] · W[k,q]) + b[0,q]` of the arrays the region was entered
  with: `addBias (linear X W) (rowOf b)`.
-/
import proofs.«168928_j48232482734726_2_alg».proof.Proof.Gen.KernelIdeal.Frame
import proofs.«168928_j48232482734726_2_alg».proof.Proof.ProjBlocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Joint

open Cert.KernelIdeal Cert.KernelIdeal.Gen Cert.KernelIdeal.Blocks Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move one block per point, the others stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of block `t` is row `8000·t + p` of the array. -/
def row (t : Fin cfg0.N) (p : Fin 8000) : Fin 1000000 :=
  ⟨8000 * t.val + p.val, by have h := t.isLt; have hN : cfg0.N = 125 := N_0; have := p.isLt; omega⟩

/-- The three arrays the region reads, as it finds them: the rows, the weights, the one-row bias. -/
abbrev rowsIn (c : Dev nD) : S1000000x2.Idx → EReal := V c main_arg0
abbrev weights (c : Dev nD) : S2x11.Idx → EReal := V c main_arg6
abbrev biasRow (c : Dev nD) : S1x11.Idx → EReal := V c main_v0

/-- The array the region leaves: the projection of the arrays it was entered with. -/
abbrev result (c : Dev nD) : S1000000x11.Idx → EReal :=
  addBias (R := 1000000) (K := 11) (linear (R := 1000000) (K := 2) (N := 11) (rowsIn V c) (weights V c)) (rowOf (K := 11) (biasRow V c))

/-- What point `t` writes back is block `t` of the projection. -/
theorem flushed_eq (c : Dev nD) (t : Fin cfg0.N) :
    (dat0 V c).flushed 3 t = ((cfg0.win 3).blk t).view.read (Elt Ideal) (result V c) := by
  show (cfg0.win 3).cut (grid0.coords t) ((dat0 V c).after 3 t) = _
  rw [after0_3]
  unfold out0_3
  rw [View.canon_unit_zero hz]
  simp only [View.ld_unit_zero (S := S8000x2) hz, View.ld_unit_zero (S := S2x11) hz, View.ld_unit_zero (S := S1x11) hz]
  obtain ⟨e00, e01, e10, e11, e20, e21, e30, e31⟩ := idx t
  funext j
  obtain ⟨p, q, rfl⟩ : ∃ (p : Fin 8000) (q : Fin 11), j = ix2 p q := ⟨j 0, j 1, eq_ix2 j⟩
  refine (projJoint_entry (iblk0 V c 0 t) (iblk0 V c 1 t) (iblk0 V c 2 t) p q).trans ?_
  rw [addBias_ix2, linear_ix2, rowOf_ix1]
  show (∑ k : Fin 2, rowsIn V c (((cfg0.win 0).blk t).view.emb (ix2 p k)) * weights V c (((cfg0.win 1).blk t).view.emb (ix2 k q)))
      + biasRow V c (((cfg0.win 2).blk t).view.emb (ix2 (0 : Fin 1) q))
    = result V c (((cfg0.win 3).blk t).view.emb (ix2 p q))
  have h3 : ((cfg0.win 3).blk t).view.emb (ix2 p q) = ix2 (row t p) q := by
    funext a; apply Fin.ext
    match a with
    | ⟨0, _⟩ => show win0_3.index t (0 : Fin 2) * 8000 + 1 * p.val = 8000 * t.val + p.val; rw [e30]; omega
    | ⟨1, _⟩ => show win0_3.index t (1 : Fin 2) * 11 + 1 * q.val = q.val; rw [e31]; omega
  have h0 : ∀ k : Fin 2, ((cfg0.win 0).blk t).view.emb (ix2 p k) = ix2 (row t p) k := fun k => by
    funext a; apply Fin.ext
    match a with
    | ⟨0, _⟩ => show win0_0.index t (0 : Fin 2) * 8000 + 1 * p.val = 8000 * t.val + p.val; rw [e00]; omega
    | ⟨1, _⟩ => show win0_0.index t (1 : Fin 2) * 2 + 1 * k.val = k.val; rw [e01]; omega
  have h1 : ∀ k : Fin 2, ((cfg0.win 1).blk t).view.emb (ix2 k q) = ix2 k q := fun k => by
    funext a; apply Fin.ext
    match a with
    | ⟨0, _⟩ => show win0_1.index t (0 : Fin 2) * 2 + 1 * k.val = k.val; rw [e10]; omega
    | ⟨1, _⟩ => show win0_1.index t (1 : Fin 2) * 11 + 1 * q.val = q.val; rw [e11]; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; rw [e20]
    | ⟨1, _⟩ => show win0_2.index t (1 : Fin 2) * 11 + 1 * q.val = q.val; rw [e21]; omega
  rw [h3, h2]
  show _ = (∑ k : Fin 2, rowsIn V c (ix2 (row t p) k) * weights V c (ix2 k q)) + biasRow V c (ix2 (0 : Fin 1) q)
  refine congrArg (· + _) (Finset.sum_congr rfl fun k _ => ?_)
  rw [h0 k, h1 k]

/-- An index of the result is in point `t`'s block iff each coordinate is in the block's range on its axis. -/
theorem mem_blk (t : Fin cfg0.N) (i : S1000000x11.Idx) :
    i ∈ ((cfg0.win 3).blk t).view.set ↔ ∀ a : Fin 2, win0_3.index t a * S8000x11.size a ≤ (i a).val ∧ (i a).val < win0_3.index t a * S8000x11.size a + S8000x11.size a := by
  show i ∈ ((View.whole main_v1).slice (win0_3.rect t)).set ↔ _
  rw [View.set_slice_whole, Rect.mem_set_unit]
  exact Iff.rfl

/-- Every row of the result lies in the block of the point numbered by the row divided by 8000. -/
theorem cover (i : S1000000x11.Idx) : ∃ t : Fin cfg0.N, (cfg0.win 3).flush t = true ∧ i ∈ ((cfg0.win 3).blk t).view.set := by
  have hi0 : (i 0).val < 1000000 := (i 0).isLt
  have hi1 : (i 1).val < 11 := (i 1).isLt
  have hN : cfg0.N = 125 := N_0
  obtain ⟨t, ht⟩ : ∃ t : Fin cfg0.N, t.val = (i 0).val / 8000 := ⟨⟨(i 0).val / 8000, by rw [hN]; omega⟩, rfl⟩
  obtain ⟨e00, e01, e10, e11, e20, e21, e30, e31⟩ := idx t
  refine ⟨t, flush0_3 t, ?_⟩
  rw [mem_blk]
  intro a
  match a with
  | ⟨0, _⟩ => show win0_3.index t (0 : Fin 2) * 8000 ≤ (i 0).val ∧ (i 0).val < win0_3.index t (0 : Fin 2) * 8000 + 8000; rw [e30, ht]; omega
  | ⟨1, _⟩ => show win0_3.index t (1 : Fin 2) * 11 ≤ (i 1).val ∧ (i 1).val < win0_3.index t (1 : Fin 2) * 11 + 11; rw [e31]; omega

/-- The result array after the region. -/
theorem final (c : Dev nD) : (dat0 V c).arrAt 3 cfg0.N = result V c :=
  (dat0 V c).arrAt_eq_of_cover 3 (result V c) (fun t _ => flushed_eq V c t) cover

end Cert.KernelIdeal.Joint

end
-- ==== Proof.TorsoArray.lean ====
/-
  The torso projection's result array: the second kernel's blocks put together.

  The kernel runs over 25 grid points; point `t` reads rows `8000·t … 8000·t + 7999` of `X`, the whole weight
  matrix and the whole one-row bias, and writes back the same rows of the result. The blocks tile the result array, so
  after the region it holds, at every index, `(∑ k, X[r,k] · W[k,q]) + b[0,q]` of the arrays the region was entered
  with: `addBias (linear X W) (rowOf b)`.
-/
import proofs.«168928_j48232482734726_2_alg».proof.Proof.Gen.KernelIdeal.Frame
import proofs.«168928_j48232482734726_2_alg».proof.Proof.ProjBlocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Torso

open Cert.KernelIdeal Cert.KernelIdeal.Gen Cert.KernelIdeal.Blocks Idealize.ShloMosaic.ValueIdx Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move one block per point, the others stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of block `t` is row `8000·t + p` of the array. -/
def row (t : Fin cfg1.N) (p : Fin 8000) : Fin 200000 :=
  ⟨8000 * t.val + p.val, by have h := t.isLt; have hN : cfg1.N = 25 := N_1; have := p.isLt; omega⟩

/-- The three arrays the region reads, as it finds them: the rows, the weights, the one-row bias. -/
abbrev rowsIn (c : Dev nD) : S200000x11.Idx → EReal := V c main_arg1
abbrev weights (c : Dev nD) : S11x11.Idx → EReal := V c main_arg8
abbrev biasRow (c : Dev nD) : S1x11.Idx → EReal := V c main_v2

/-- The array the region leaves: the projection of the arrays it was entered with. -/
abbrev result (c : Dev nD) : S200000x11.Idx → EReal :=
  addBias (R := 200000) (K := 11) (linear (R := 200000) (K := 11) (N := 11) (rowsIn V c) (weights V c)) (rowOf (K := 11) (biasRow V c))

/-- What point `t` writes back is block `t` of the projection. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero hz]
  simp only [View.ld_unit_zero (S := S8000x11) hz, View.ld_unit_zero (S := S11x11) hz, View.ld_unit_zero (S := S1x11) hz]
  obtain ⟨e00, e01, e10, e11, e20, e21, e30, e31⟩ := idx t
  funext j
  obtain ⟨p, q, rfl⟩ : ∃ (p : Fin 8000) (q : Fin 11), j = ix2 p q := ⟨j 0, j 1, eq_ix2 j⟩
  refine (projTorso_entry (iblk1 V c 0 t) (iblk1 V c 1 t) (iblk1 V c 2 t) p q).trans ?_
  rw [addBias_ix2, linear_ix2, rowOf_ix1]
  show (∑ k : Fin 11, rowsIn V c (((cfg1.win 0).blk t).view.emb (ix2 p k)) * weights V c (((cfg1.win 1).blk t).view.emb (ix2 k q)))
      + biasRow V c (((cfg1.win 2).blk t).view.emb (ix2 (0 : Fin 1) q))
    = result V c (((cfg1.win 3).blk t).view.emb (ix2 p q))
  have h3 : ((cfg1.win 3).blk t).view.emb (ix2 p q) = ix2 (row t p) q := by
    funext a; apply Fin.ext
    match a with
    | ⟨0, _⟩ => show win1_3.index t (0 : Fin 2) * 8000 + 1 * p.val = 8000 * t.val + p.val; rw [e30]; omega
    | ⟨1, _⟩ => show win1_3.index t (1 : Fin 2) * 11 + 1 * q.val = q.val; rw [e31]; omega
  have h0 : ∀ k : Fin 11, ((cfg1.win 0).blk t).view.emb (ix2 p k) = ix2 (row t p) k := fun k => by
    funext a; apply Fin.ext
    match a with
    | ⟨0, _⟩ => show win1_0.index t (0 : Fin 2) * 8000 + 1 * p.val = 8000 * t.val + p.val; rw [e00]; omega
    | ⟨1, _⟩ => show win1_0.index t (1 : Fin 2) * 11 + 1 * k.val = k.val; rw [e01]; omega
  have h1 : ∀ k : Fin 11, ((cfg1.win 1).blk t).view.emb (ix2 k q) = ix2 k q := fun k => by
    funext a; apply Fin.ext
    match a with
    | ⟨0, _⟩ => show win1_1.index t (0 : Fin 2) * 11 + 1 * k.val = k.val; rw [e10]; omega
    | ⟨1, _⟩ => show win1_1.index t (1 : Fin 2) * 11 + 1 * q.val = q.val; rw [e11]; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; rw [e20]
    | ⟨1, _⟩ => show win1_2.index t (1 : Fin 2) * 11 + 1 * q.val = q.val; rw [e21]; omega
  rw [h3, h2]
  show _ = (∑ k : Fin 11, rowsIn V c (ix2 (row t p) k) * weights V c (ix2 k q)) + biasRow V c (ix2 (0 : Fin 1) q)
  refine congrArg (· + _) (Finset.sum_congr rfl fun k _ => ?_)
  rw [h0 k, h1 k]

/-- An index of the result is in point `t`'s block iff each coordinate is in the block's range on its axis. -/
theorem mem_blk (t : Fin cfg1.N) (i : S200000x11.Idx) :
    i ∈ ((cfg1.win 3).blk t).view.set ↔ ∀ a : Fin 2, win1_3.index t a * S8000x11.size a ≤ (i a).val ∧ (i a).val < win1_3.index t a * S8000x11.size a + S8000x11.size a := by
  show i ∈ ((View.whole main_v3).slice (win1_3.rect t)).set ↔ _
  rw [View.set_slice_whole, Rect.mem_set_unit]
  exact Iff.rfl

/-- Every row of the result lies in the block of the point numbered by the row divided by 8000. -/
theorem cover (i : S200000x11.Idx) : ∃ t : Fin cfg1.N, (cfg1.win 3).flush t = true ∧ i ∈ ((cfg1.win 3).blk t).view.set := by
  have hi0 : (i 0).val < 200000 := (i 0).isLt
  have hi1 : (i 1).val < 11 := (i 1).isLt
  have hN : cfg1.N = 25 := N_1
  obtain ⟨t, ht⟩ : ∃ t : Fin cfg1.N, t.val = (i 0).val / 8000 := ⟨⟨(i 0).val / 8000, by rw [hN]; omega⟩, rfl⟩
  obtain ⟨e00, e01, e10, e11, e20, e21, e30, e31⟩ := idx t
  refine ⟨t, flush1_3 t, ?_⟩
  rw [mem_blk]
  intro a
  match a with
  | ⟨0, _⟩ => show win1_3.index t (0 : Fin 2) * 8000 ≤ (i 0).val ∧ (i 0).val < win1_3.index t (0 : Fin 2) * 8000 + 8000; rw [e30, ht]; omega
  | ⟨1, _⟩ => show win1_3.index t (1 : Fin 2) * 11 ≤ (i 1).val ∧ (i 1).val < win1_3.index t (1 : Fin 2) * 11 + 11; rw [e31]; omega

/-- The result array after the region. -/
theorem final (c : Dev nD) : (dat1 V c).arrAt 3 cfg1.N = result V c :=
  (dat1 V c).arrAt_eq_of_cover 3 (result V c) (fun t _ => flushed_eq V c t) cover

end Cert.KernelIdeal.Torso

end
-- ==== Proof.FoldProj.lean ====
/-
  The buffer contents from the launch to the end of the second projection kernel.

  Before each projection kernel the host re-casts the bias vector to a one-row matrix; nothing else is written. So
  the first kernel finds its rows `x_joint`, its weights and the re-cast bias as launched and leaves the joint
  features `xj = x_joint · Wj + bj`; the second finds `x_torso`, its weights and bias as launched and leaves the torso
  features `xt = x_torso · Wt + bt`; every argument array is still as launched, and `xj` is still in place after the
  second kernel.
-/
import proofs.«168928_j48232482734726_2_alg».proof.Proof.Gen.KernelIdeal.Frame
import proofs.«168928_j48232482734726_2_alg».proof.Proof.JointArray
import proofs.«168928_j48232482734726_2_alg».proof.Proof.TorsoArray
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Idealize.ShloMosaic.ValueIdx Cert.Gcn

variable (m : (ℓ : Loc nD τ sig) → Buf (Elt Ideal) ℓ) (ρ : Dev nD → PrngReg)

/-! ## The float arguments as launched, at their shapes -/

abbrev xJoint (c : Dev nD) : S1000000x2.Idx → EReal := m ((c : Thread nD τ).loc main_arg0)
abbrev xTorso (c : Dev nD) : S200000x11.Idx → EReal := m ((c : Thread nD τ).loc main_arg1)
abbrev wJ (c : Dev nD) : S2x11.Idx → EReal := m ((c : Thread nD τ).loc main_arg6)
abbrev bJ (c : Dev nD) : S11.Idx → EReal := m ((c : Thread nD τ).loc main_arg7)
abbrev wT (c : Dev nD) : S11x11.Idx → EReal := m ((c : Thread nD τ).loc main_arg8)
abbrev bT (c : Dev nD) : S11.Idx → EReal := m ((c : Thread nD τ).loc main_arg9)

/-- The joint features: `x_joint · Wj + bj`. -/
def xj (c : Dev nD) : S1000000x11.Idx → EReal :=
  addBias (R := 1000000) (K := 11) (linear (R := 1000000) (K := 2) (N := 11) (xJoint m c) (wJ m c)) (bJ m c)

/-- The torso features: `x_torso · Wt + bt`. -/
def xt (c : Dev nD) : S200000x11.Idx → EReal :=
  addBias (R := 200000) (K := 11) (linear (R := 200000) (K := 11) (N := 11) (xTorso m c) (wT m c)) (bT m c)

/-! ## Up to the first kernel -/

/-- A buffer the first host stretch does not write is as launched when the first kernel starts. -/
theorem W1_keep (c : Dev nD) (b : Ref sig .tc) (hb : b ≠ main_v0) :
    W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The bias of the joint projection, re-cast to one row. -/
theorem W1_bias (c : Dev nD) :
    (W1 m ρ c (Proc.devRef .tc main_v0) : S1x11.Idx → EReal) = shapeCast S1x11 (bJ m c) Facts₀.shapeCasts_S11_S1x11 := by
  show StableHlo.after hostOps0 (W0 m ρ c) (Proc.devRef .tc main_v0) = _
  after_results
  rfl

/-- After the first kernel its result array holds the joint features. -/
theorem W2_joint (c : Dev nD) : (W2 m ρ c (Proc.devRef .tc main_v1) : S1000000x11.Idx → EReal) = xj m c := by
  refine (W2_arr m ρ c 3).trans ((Joint.final (V1 m ρ) c).trans ?_)
  show addBias (R := 1000000) (K := 11) (linear (R := 1000000) (K := 2) (N := 11)
      (W1 m ρ c (Proc.devRef .tc main_arg0)) (W1 m ρ c (Proc.devRef .tc main_arg6))) (rowOf (K := 11) (W1 m ρ c (Proc.devRef .tc main_v0))) = _
  rw [W1_keep m ρ c main_arg0 (by decide), W1_keep m ρ c main_arg6 (by decide), W1_bias, rowOf_shapeCast]
  rfl

/-- A buffer that neither the first host stretch nor the first kernel writes is as launched after the first kernel. -/
theorem W2_keep (c : Dev nD) (b : Ref sig .tc) (hw : ∀ w, Pipeline.arrRef spec0 w ≠ b) (hb : b ≠ main_v0) :
    W2 m ρ c (Proc.devRef .tc b) = m ((c : Thread nD τ).loc b) :=
  (W2_of_ne m ρ c b hw).trans (W1_keep m ρ c b hb)

/-! ## Up to the second kernel -/

/-- A buffer the second host stretch does not write holds, when the second kernel starts, what it held after the first. -/
theorem W3_pass (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The bias of the torso projection, re-cast to one row. -/
theorem W3_bias (c : Dev nD) :
    (W3 m ρ c (Proc.devRef .tc main_v2) : S1x11.Idx → EReal) = shapeCast S1x11 (bT m c) Facts₀.shapeCasts_S11_S1x11 := by
  show StableHlo.after hostOps1 (W2 m ρ c) (Proc.devRef .tc main_v2) = _
  after_results
  rw [W2_keep m ρ c main_arg9 (by decide) (by decide)]
  rfl

/-- After the second kernel its result array holds the torso features. -/
theorem W4_torso (c : Dev nD) : (W4 m ρ c (Proc.devRef .tc main_v3) : S200000x11.Idx → EReal) = xt m c := by
  refine (W4_arr m ρ c 3).trans ((Torso.final (V3 m ρ) c).trans ?_)
  show addBias (R := 200000) (K := 11) (linear (R := 200000) (K := 11) (N := 11)
      (W3 m ρ c (Proc.devRef .tc main_arg1)) (W3 m ρ c (Proc.devRef .tc main_arg8))) (rowOf (K := 11) (W3 m ρ c (Proc.devRef .tc main_v2))) = _
  rw [W3_pass m ρ c main_arg1 (by decide), W3_pass m ρ c main_arg8 (by decide),
    W2_keep m ρ c main_arg1 (by decide) (by decide), W2_keep m ρ c main_arg8 (by decide) (by decide), W3_bias, rowOf_shapeCast]
  rfl

/-- The joint features are still in place after the second kernel. -/
theorem W4_joint (c : Dev nD) : (W4 m ρ c (Proc.devRef .tc main_v1) : S1000000x11.Idx → EReal) = xj m c :=
  (W4_of_ne m ρ c main_v1 (by decide)).trans ((W3_pass m ρ c main_v1 (by decide)).trans (W2_joint m ρ c))

/-- A buffer that nothing up to the end of the second kernel writes is as launched there. -/
theorem W4_keep (c : Dev nD) (b : Ref sig .tc) (hw0 : ∀ w, Pipeline.arrRef spec0 w ≠ b) (hw1 : ∀ w, Pipeline.arrRef spec1 w ≠ b)
    (hb0 : b ≠ main_v0) (hb2 : b ≠ main_v2) : W4 m ρ c (Proc.devRef .tc b) = m ((c : Thread nD τ).loc b) :=
  (W4_of_ne m ρ c b hw1).trans ((W3_pass m ρ c b hb2).trans (W2_keep m ρ c b hw0 hb0))

end Cert.KernelIdeal.Fold

end
-- ==== Proof.FoldEdges.lean ====
/-
  The buffer contents when the combining kernel starts.

  Between the second projection kernel and the combining kernel the host aggregates along the two edge lists. For the
  torso-to-joint edges it wraps negative source ids by the number of torso nodes, gathers the torso features' rows at
  the source ids, and scatter-adds them into a zero array at the destination ids; for the joint-to-joint edges the same
  over the joint features with the number of joints. It also re-casts the three remaining bias vectors to one-row
  matrices. Nothing else is written: the joint features and every weight array are as they were.
-/
import proofs.«168928_j48232482734726_2_alg».proof.Proof.Gen.KernelIdeal.Frame
import proofs.«168928_j48232482734726_2_alg».proof.Proof.FoldProj
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Idealize.ShloMosaic.ValueIdx Cert.Gcn

variable (m : (ℓ : Loc nD τ sig) → Buf (Elt Ideal) ℓ) (ρ : Dev nD → PrngReg)

/-! ## The two aggregations, as the host spells them -/

/-- Torso features summed onto the joints along the torso-to-joint edges. -/
def aggTorso (feat : (⟨S200000x11, .f32⟩ : BufTy).Contents (Elt Ideal)) (src dst : (⟨S2000000, .i32⟩ : BufTy).Contents (Elt Ideal)) :
    (⟨S1000000x11, .f32⟩ : BufTy).Contents (Elt Ideal) :=
  Host.scatterAdd scatter_S1000000x11_S2000000x1_S2000000x11_1_0_0_1
    (broadcastInDim S1000000x11 ![] Facts₀.bcast_S_S1000000x11 (constant (F := Ideal) S_ .f32 0x00000000#32))
    (broadcastInDim S2000000x1 ![0] Facts₀.bcast_S2000000_S2000000x1_0 dst)
    (Host.gather gather_S200000x11_S2000000x1_S2000000x11_1_0_n_n_0_1_111 feat
      (broadcastInDim S2000000x1 ![0] Facts₀.bcast_S2000000_S2000000x1_0
        (select (cmpi .slt src (broadcastInDim S2000000 ![] Facts₀.bcast_S_S2000000 (constantI S_ 32 0#32)))
          (addi src (broadcastInDim S2000000 ![] Facts₀.bcast_S_S2000000 (constantI S_ 32 200000#32))) src)))

/-- Joint features summed onto the joints along the joint-to-joint edges. -/
def aggJoint (feat : (⟨S1000000x11, .f32⟩ : BufTy).Contents (Elt Ideal)) (src dst : (⟨S16000000, .i32⟩ : BufTy).Contents (Elt Ideal)) :
    (⟨S1000000x11, .f32⟩ : BufTy).Contents (Elt Ideal) :=
  Host.scatterAdd scatter_S1000000x11_S16000000x1_S16000000x11_1_0_0_1
    (broadcastInDim S1000000x11 ![] Facts₀.bcast_S_S1000000x11 (constant (F := Ideal) S_ .f32 0x00000000#32))
    (broadcastInDim S16000000x1 ![0] Facts₀.bcast_S16000000_S16000000x1_0 dst)
    (Host.gather gather_S1000000x11_S16000000x1_S16000000x11_1_0_n_n_0_1_111 feat
      (broadcastInDim S16000000x1 ![0] Facts₀.bcast_S16000000_S16000000x1_0
        (select (cmpi .slt src (broadcastInDim S16000000 ![] Facts₀.bcast_S_S16000000 (constantI S_ 32 0#32)))
          (addi src (broadcastInDim S16000000 ![] Facts₀.bcast_S_S16000000 (constantI S_ 32 1000000#32))) src)))

/-! ## What the stretch leaves in place -/

/-- The joint features are not written. -/
theorem W5_pass_v1 (c : Dev nD) : W5 m ρ c (Proc.devRef .tc main_v1) = W4 m ρ c (Proc.devRef .tc main_v1) :=
  StableHlo.after_of_forall_not_mem (b := Proc.devRef .tc main_v1) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The first relation's weights are not written. -/
theorem W5_pass_arg10 (c : Dev nD) : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The first root weights are not written. -/
theorem W5_pass_arg12 (c : Dev nD) : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The second relation's weights are not written. -/
theorem W5_pass_arg13 (c : Dev nD) : W5 m ρ c (Proc.devRef .tc main_arg13) = W4 m ρ c (Proc.devRef .tc main_arg13) :=
  StableHlo.after_of_forall_not_mem (b := Proc.devRef .tc main_arg13) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The second root weights are not written. -/
theorem W5_pass_arg15 (c : Dev nD) : W5 m ρ c (Proc.devRef .tc main_arg15) = W4 m ρ c (Proc.devRef .tc main_arg15) :=
  StableHlo.after_of_forall_not_mem (b := Proc.devRef .tc main_arg15) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The output weights are not written. -/
theorem W5_pass_arg16 (c : Dev nD) : W5 m ρ c (Proc.devRef .tc main_arg16) = W4 m ρ c (Proc.devRef .tc main_arg16) :=
  StableHlo.after_of_forall_not_mem (b := Proc.devRef .tc main_arg16) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## What the stretch computes -/

set_option maxHeartbeats 2000000 in
/-- The torso-to-joint aggregate, from the torso features and the two edge lists as launched. -/
theorem W5_aggTorso (c : Dev nD) :
    W5 m ρ c (Proc.devRef .tc main_v13)
      = aggTorso (xt m c) (m ((c : Thread nD τ).loc main_arg2)) (m ((c : Thread nD τ).loc main_arg3)) := by
  show StableHlo.after hostOps2 (W4 m ρ c) (Proc.devRef .tc main_v13) = _
  after_results_simp
  rw [W4_torso, W4_keep m ρ c main_arg2 (by decide) (by decide) (by decide) (by decide),
    W4_keep m ρ c main_arg3 (by decide) (by decide) (by decide) (by decide)]
  rfl

set_option maxHeartbeats 2000000 in
/-- The joint-to-joint aggregate, from the joint features and the two edge lists as launched. -/
theorem W5_aggJoint (c : Dev nD) :
    W5 m ρ c (Proc.devRef .tc main_v23)
      = aggJoint (xj m c) (m ((c : Thread nD τ).loc main_arg4)) (m ((c : Thread nD τ).loc main_arg5)) := by
  show StableHlo.after hostOps2 (W4 m ρ c) (Proc.devRef .tc main_v23) = _
  after_results_simp
  rw [W4_joint, W4_keep m ρ c main_arg4 (by decide) (by decide) (by decide) (by decide),
    W4_keep m ρ c main_arg5 (by decide) (by decide) (by decide) (by decide)]
  rfl

set_option maxHeartbeats 2000000 in
/-- The three remaining biases, each re-cast to one row. -/
theorem W5_bias24 (c : Dev nD) :
    (W5 m ρ c (Proc.devRef .tc main_v24) : S1x64.Idx → EReal)
      = shapeCast S1x64 (m ((c : Thread nD τ).loc main_arg11) : S64.Idx → EReal) Facts₀.shapeCasts_S64_S1x64 := by
  show StableHlo.after hostOps2 (W4 m ρ c) (Proc.devRef .tc main_v24) = _
  after_results_simp
  rw [W4_keep m ρ c main_arg11 (by decide) (by decide) (by decide) (by decide)]
  rfl

set_option maxHeartbeats 2000000 in
theorem W5_bias25 (c : Dev nD) :
    (W5 m ρ c (Proc.devRef .tc main_v25) : S1x64.Idx → EReal)
      = shapeCast S1x64 (m ((c : Thread nD τ).loc main_arg14) : S64.Idx → EReal) Facts₀.shapeCasts_S64_S1x64 := by
  show StableHlo.after hostOps2 (W4 m ρ c) (Proc.devRef .tc main_v25) = _
  after_results_simp
  rw [W4_keep m ρ c main_arg14 (by decide) (by decide) (by decide) (by decide)]
  rfl

set_option maxHeartbeats 2000000 in
theorem W5_bias26 (c : Dev nD) :
    (W5 m ρ c (Proc.devRef .tc main_v26) : S1x2.Idx → EReal)
      = shapeCast S1x2 (m ((c : Thread nD τ).loc main_arg17) : S2.Idx → EReal) Facts₀.shapeCasts_S2_S1x2 := by
  show StableHlo.after hostOps2 (W4 m ρ c) (Proc.devRef .tc main_v26) = _
  after_results_simp
  rw [W4_keep m ρ c main_arg17 (by decide) (by decide) (by decide) (by decide)]
  rfl

end Cert.KernelIdeal.Fold

end
-- ==== Proof.HeadSpec.lean ====
/-
  The network's head, as functions on extended reals.

  For every joint `r` the combining stage forms 64 hidden features from three 11-wide rows — the torso messages
  aggregated onto the joint, the joint messages aggregated onto it, and the joint's own projected features — by two
  graph-convolution terms added in a fixed order:

      hidden[r,k] = ((((Atj·Wrt)[r,k] + brt[k]) + (Xj·Wot)[r,k]) + (Ajj·Wrj)[r,k]) + brj[k]) + (Xj·Woj)[r,k]

  then two outputs `out = hidden · Wo + bo`. The first output is the location; the second, `z`, gives the scale
  `max(1e-4, softplus(z + β))`, the softplus spelt as the log-add-exp of `x = z + β` against zero with the usual guard:
  `select(x − 0 ≠ x − 0, x + 0, max(x, 0) + log1p(exp(−|x − 0|)))`. The three literals (β, the zero and the floor 1e-4) are
  kept as their 32-bit words; only the zero word is ever evaluated.
-/
import proofs.«168928_j48232482734726_2_alg».proof.Proof.LibDenseSpec
import proofs.«168928_j48232482734726_2_alg».proof.Proof.LibBiasRow
import Idealize.ShloMosaic.PureOps.Ideal
import Idealize.ShloMosaic.PureOps.Ideal.Laws
import Idealize.ShloMosaic.Lib.ValueIdx

noncomputable section

namespace Cert.JointNet

open Idealize.ShloMosaic Idealize.ShloMosaic.ValueIdx Cert.Gcn

variable {R : ℕ}

/-- The 64 hidden features of every joint. -/
def hidden (Atj Ajj Xj : FVec Ideal ⟨2, ![R, 11]⟩ .f32) (Wrt : FVec Ideal ⟨2, ![11, 64]⟩ .f32) (brt : FVec Ideal ⟨1, ![64]⟩ .f32)
    (Wot Wrj : FVec Ideal ⟨2, ![11, 64]⟩ .f32) (brj : FVec Ideal ⟨1, ![64]⟩ .f32) (Woj : FVec Ideal ⟨2, ![11, 64]⟩ .f32) :
    FVec Ideal ⟨2, ![R, 64]⟩ .f32 :=
  fun i => linear Atj Wrt i + brt (ix1 (i 1)) + linear Xj Wot i + linear Ajj Wrj i + brj (ix1 (i 1)) + linear Xj Woj i

theorem hidden_ix2 (Atj Ajj Xj : FVec Ideal ⟨2, ![R, 11]⟩ .f32) (Wrt : FVec Ideal ⟨2, ![11, 64]⟩ .f32) (brt : FVec Ideal ⟨1, ![64]⟩ .f32)
    (Wot Wrj : FVec Ideal ⟨2, ![11, 64]⟩ .f32) (brj : FVec Ideal ⟨1, ![64]⟩ .f32) (Woj : FVec Ideal ⟨2, ![11, 64]⟩ .f32)
    (r : Fin R) (k : Fin 64) :
    hidden Atj Ajj Xj Wrt brt Wot Wrj brj Woj (ix2 r k)
      = linear Atj Wrt (ix2 r k) + brt (ix1 k) + linear Xj Wot (ix2 r k) + linear Ajj Wrj (ix2 r k) + brj (ix1 k)
        + linear Xj Woj (ix2 r k) := rfl

/-- The hidden features of a row depend on that row of the three inputs only: row `r` of one triple of inputs and row
    `r'` of another (of any number of rows) that agree entry by entry give the same features. -/
theorem hidden_rows {R' : ℕ} (Atj Ajj Xj : FVec Ideal ⟨2, ![R, 11]⟩ .f32) (Atj' Ajj' Xj' : FVec Ideal ⟨2, ![R', 11]⟩ .f32)
    (Wrt : FVec Ideal ⟨2, ![11, 64]⟩ .f32) (brt : FVec Ideal ⟨1, ![64]⟩ .f32) (Wot Wrj : FVec Ideal ⟨2, ![11, 64]⟩ .f32)
    (brj : FVec Ideal ⟨1, ![64]⟩ .f32) (Woj : FVec Ideal ⟨2, ![11, 64]⟩ .f32) (r : Fin R) (r' : Fin R') (k : Fin 64)
    (h1 : ∀ j : Fin 11, Atj (ix2 r j) = Atj' (ix2 r' j)) (h2 : ∀ j : Fin 11, Ajj (ix2 r j) = Ajj' (ix2 r' j))
    (h3 : ∀ j : Fin 11, Xj (ix2 r j) = Xj' (ix2 r' j)) :
    hidden Atj Ajj Xj Wrt brt Wot Wrj brj Woj (ix2 r k) = hidden Atj' Ajj' Xj' Wrt brt Wot Wrj brj Woj (ix2 r' k) := by
  rw [hidden_ix2, hidden_ix2, linear_ix2, linear_ix2, linear_ix2, linear_ix2, linear_ix2, linear_ix2, linear_ix2, linear_ix2]
  simp only [h1, h2, h3]

/-- The two outputs of every joint: `H · Wo + bo`. -/
def outputs (H : FVec Ideal ⟨2, ![R, 64]⟩ .f32) (Wo : FVec Ideal ⟨2, ![64, 2]⟩ .f32) (bo : FVec Ideal ⟨1, ![2]⟩ .f32) :
    FVec Ideal ⟨2, ![R, 2]⟩ .f32 :=
  addBias (linear H Wo) bo

theorem outputs_ix2 (H : FVec Ideal ⟨2, ![R, 64]⟩ .f32) (Wo : FVec Ideal ⟨2, ![64, 2]⟩ .f32) (bo : FVec Ideal ⟨1, ![2]⟩ .f32)
    (r : Fin R) (j : Fin 2) : outputs H Wo bo (ix2 r j) = linear H Wo (ix2 r j) + bo (ix1 j) := rfl

/-- The outputs of a row depend on that row of the hidden features only. -/
theorem outputs_rows {R' : ℕ} (H : FVec Ideal ⟨2, ![R, 64]⟩ .f32) (H' : FVec Ideal ⟨2, ![R', 64]⟩ .f32)
    (Wo : FVec Ideal ⟨2, ![64, 2]⟩ .f32) (bo : FVec Ideal ⟨1, ![2]⟩ .f32) (r : Fin R) (r' : Fin R') (j : Fin 2)
    (h : ∀ k : Fin 64, H (ix2 r k) = H' (ix2 r' k)) : outputs H Wo bo (ix2 r j) = outputs H' Wo bo (ix2 r' j) := by
  rw [outputs_ix2, outputs_ix2, linear_ix2, linear_ix2]
  simp only [h]

/-- The scale from the second output `z`: `max(1e-4, softplus(z + β))`, the softplus as the log-add-exp against zero. -/
def scale (z : Ideal .f32) : Ideal .f32 :=
  FloatOps.maximumf (FloatOps.ofBits .f32 0x38D1B717#32)
    (Scalar.select
      (FloatOps.cmpf .une
        (FloatOps.subf (FloatOps.addf z (FloatOps.ofBits .f32 0x3F0A9444#32)) (FloatOps.ofBits .f32 0x00000000#32))
        (FloatOps.subf (FloatOps.addf z (FloatOps.ofBits .f32 0x3F0A9444#32)) (FloatOps.ofBits .f32 0x00000000#32)))
      (FloatOps.addf (FloatOps.addf z (FloatOps.ofBits .f32 0x3F0A9444#32)) (FloatOps.ofBits .f32 0x00000000#32))
      (FloatOps.addf
        (FloatOps.maximumf (FloatOps.addf z (FloatOps.ofBits .f32 0x3F0A9444#32)) (FloatOps.ofBits .f32 0x00000000#32))
        (FloatOps.hostUnary .log1p (FloatOps.hostUnary .exp (FloatOps.hostNegf (FloatOps.hostAbsf
          (FloatOps.subf (FloatOps.addf z (FloatOps.ofBits .f32 0x3F0A9444#32)) (FloatOps.ofBits .f32 0x00000000#32))))))))

/-- The same scale as a vector kernel spells it: the guard by the ordered comparison, the negation as a subtraction from
    the zero word, the functions by their own names. -/
def scaleVec (z : Ideal .f32) : Ideal .f32 :=
  FloatOps.maximumf (Scalar.ofBits .f32 0x38D1B717#32)
    (Scalar.select
      (FloatOps.cmpf .one
        (FloatOps.subf (FloatOps.addf z (Scalar.ofBits .f32 0x3F0A9444#32)) (Scalar.ofBits .f32 0x00000000#32))
        (FloatOps.subf (FloatOps.addf z (Scalar.ofBits .f32 0x3F0A9444#32)) (Scalar.ofBits .f32 0x00000000#32)))
      (FloatOps.addf (FloatOps.addf z (Scalar.ofBits .f32 0x3F0A9444#32)) (Scalar.ofBits .f32 0x00000000#32))
      (FloatOps.addf
        (FloatOps.maximumf (FloatOps.addf z (Scalar.ofBits .f32 0x3F0A9444#32)) (Scalar.ofBits .f32 0x00000000#32))
        (FloatOps.log1p (FloatOps.exp (FloatOps.subf (Scalar.ofBits .f32 0x00000000#32) (FloatOps.absf
          (FloatOps.subf (FloatOps.addf z (Scalar.ofBits .f32 0x3F0A9444#32)) (Scalar.ofBits .f32 0x00000000#32))))))))

/-- The two spellings agree: on extended reals there is no unordered pair, and `0 − a = −a`. -/
theorem scaleVec_eq (z : Ideal .f32) : scaleVec z = scale z := by
  have h0 : ∀ a : EReal, Ideal.ofBits .f32 0x00000000#32 - a = -a := fun a => by rw [Ideal.ofBits_zero_f32, zero_sub]
  unfold scaleVec scale
  show max _ (Scalar.select (Ideal.cmp .one _ _) _ (_ + Ideal.log1p (Ideal.exp (Ideal.ofBits .f32 0x00000000#32 - _))))
     = max _ (Scalar.select (Ideal.cmp .une _ _) _ (_ + Ideal.log1p (Ideal.exp (-_))))
  rw [h0]
  rfl

/-- What is kept per joint: the first output as it is, the scale of the second. -/
def headCols (O : FVec Ideal ⟨2, ![R, 2]⟩ .f32) : FVec Ideal ⟨2, ![R, 2]⟩ .f32 :=
  fun i => if (i 1).val = 0 then O i else scale (O i)

theorem headCols_loc (O : FVec Ideal ⟨2, ![R, 2]⟩ .f32) (r : Fin R) : headCols O (ix2 r (0 : Fin 2)) = O (ix2 r (0 : Fin 2)) :=
  if_pos rfl

theorem headCols_scale (O : FVec Ideal ⟨2, ![R, 2]⟩ .f32) (r : Fin R) :
    headCols O (ix2 r (1 : Fin 2)) = scale (O (ix2 r (1 : Fin 2))) :=
  if_neg (by show ¬((1 : Fin 2).val = 0); decide)

/-- What is kept for a row depends on that row of the outputs only. -/
theorem headCols_rows {R' : ℕ} (O : FVec Ideal ⟨2, ![R, 2]⟩ .f32) (O' : FVec Ideal ⟨2, ![R', 2]⟩ .f32) (r : Fin R) (r' : Fin R')
    (j : Fin 2) (h : O (ix2 r j) = O' (ix2 r' j)) : headCols O (ix2 r j) = headCols O' (ix2 r' j) := by
  show (if j.val = 0 then O (ix2 r j) else scale (O (ix2 r j))) = (if j.val = 0 then O' (ix2 r' j) else scale (O' (ix2 r' j)))
  rw [h]

/-- The whole head of a row, from that row of the three 11-wide inputs: two triples of inputs (of any numbers of rows)
    that agree on rows `r` and `r'` give the same kept values there. -/
theorem head_rows {R' : ℕ} (Atj Ajj Xj : FVec Ideal ⟨2, ![R, 11]⟩ .f32) (Atj' Ajj' Xj' : FVec Ideal ⟨2, ![R', 11]⟩ .f32)
    (Wrt : FVec Ideal ⟨2, ![11, 64]⟩ .f32) (brt : FVec Ideal ⟨1, ![64]⟩ .f32) (Wot Wrj : FVec Ideal ⟨2, ![11, 64]⟩ .f32)
    (brj : FVec Ideal ⟨1, ![64]⟩ .f32) (Woj : FVec Ideal ⟨2, ![11, 64]⟩ .f32) (Wo : FVec Ideal ⟨2, ![64, 2]⟩ .f32)
    (bo : FVec Ideal ⟨1, ![2]⟩ .f32) (r : Fin R) (r' : Fin R') (j : Fin 2)
    (h1 : ∀ k : Fin 11, Atj (ix2 r k) = Atj' (ix2 r' k)) (h2 : ∀ k : Fin 11, Ajj (ix2 r k) = Ajj' (ix2 r' k))
    (h3 : ∀ k : Fin 11, Xj (ix2 r k) = Xj' (ix2 r' k)) :
    headCols (outputs (hidden Atj Ajj Xj Wrt brt Wot Wrj brj Woj) Wo bo) (ix2 r j)
      = headCols (outputs (hidden Atj' Ajj' Xj' Wrt brt Wot Wrj brj Woj) Wo bo) (ix2 r' j) :=
  headCols_rows _ _ r r' j (outputs_rows _ _ Wo bo r r' j fun k =>
    hidden_rows Atj Ajj Xj Atj' Ajj' Xj' Wrt brt Wot Wrj brj Woj r r' k h1 h2 h3)

end Cert.JointNet

end
-- ==== Proof.CombineBlocks.lean ====
/-
  The combining kernel on one block of 8000 joints, at the ideal values.

  From the block's three 11-wide inputs (torso messages aggregated onto the joints, joint messages aggregated onto
  them, the joints' own projected features), four 11×64 weight matrices and two one-row biases it forms the 64 hidden
  features (four products into zero accumulators and two bias rows, added in the order the network's definition
  has), rounds them to a narrower format (the identity on extended reals), multiplies by the 64×2 output weights and
  adds the output bias row. Column 0 of the result is stored as it is; column 1 goes through the scale head. So the
  first stored column is `outputs … (p, 0)` and the second `scale (outputs … (p, 1))`.
-/
import proofs.«168928_j48232482734726_2_alg».proof.Proof.Gen.KernelIdeal.Skeleton
import proofs.«168928_j48232482734726_2_alg».proof.Proof.LibMatmulSum
import proofs.«168928_j48232482734726_2_alg».proof.Proof.LibBiasRow
import proofs.«168928_j48232482734726_2_alg».proof.Proof.HeadSpec
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx Cert.Gcn Cert.GraphConv Cert.JointNet

/-! ## Which coordinate of each operand a product's output and contraction indices supply -/

theorem dC_l0 (i : S8000x64.Idx) (q : dot_S8000x11_S11x64_S8000x64_1_0_0_1_n_n.contr.Idx) : (dot_S8000x11_S11x64_S8000x64_1_0_0_1_n_n.lhsIdx i q 0).val = (i 0).val := by
  unfold DotDims.lhsIdx
  rw [dif_neg (show ¬(0 : Fin S8000x11.rank) ∈ dot_S8000x11_S11x64_S8000x64_1_0_0_1_n_n.lhsBatch by decide), dif_pos (show (0 : Fin S8000x11.rank) ∈ dot_S8000x11_S11x64_S8000x64_1_0_0_1_n_n.lhsNonContracting by decide)]
  rfl
theorem dC_l1 (i : S8000x64.Idx) (q : dot_S8000x11_S11x64_S8000x64_1_0_0_1_n_n.contr.Idx) : (dot_S8000x11_S11x64_S8000x64_1_0_0_1_n_n.lhsIdx i q 1).val = (q ⟨0, by decide⟩).val :=
  dot_S8000x11_S11x64_S8000x64_1_0_0_1_n_n.lhsIdx_val_of_single rfl i q
theorem dC_r0 (i : S8000x64.Idx) (q : dot_S8000x11_S11x64_S8000x64_1_0_0_1_n_n.contr.Idx) : (dot_S8000x11_S11x64_S8000x64_1_0_0_1_n_n.rhsIdx i q 0).val = (q ⟨0, by decide⟩).val :=
  dot_S8000x11_S11x64_S8000x64_1_0_0_1_n_n.rhsIdx_val_of_single rfl i q
theorem dC_r1 (i : S8000x64.Idx) (q : dot_S8000x11_S11x64_S8000x64_1_0_0_1_n_n.contr.Idx) : (dot_S8000x11_S11x64_S8000x64_1_0_0_1_n_n.rhsIdx i q 1).val = (i 1).val := by
  unfold DotDims.rhsIdx
  rw [dif_neg (show ¬(1 : Fin S11x64.rank) ∈ dot_S8000x11_S11x64_S8000x64_1_0_0_1_n_n.rhsBatch by decide), dif_pos (show (1 : Fin S11x64.rank) ∈ dot_S8000x11_S11x64_S8000x64_1_0_0_1_n_n.rhsNonContracting by decide)]
  rfl

theorem dD_l0 (i : S8000x2.Idx) (q : dot_S8000x64_S64x2_S8000x2_1_0_0_1_n_n.contr.Idx) : (dot_S8000x64_S64x2_S8000x2_1_0_0_1_n_n.lhsIdx i q 0).val = (i 0).val := by
  unfold DotDims.lhsIdx
  rw [dif_neg (show ¬(0 : Fin S8000x64.rank) ∈ dot_S8000x64_S64x2_S8000x2_1_0_0_1_n_n.lhsBatch by decide), dif_pos (show (0 : Fin S8000x64.rank) ∈ dot_S8000x64_S64x2_S8000x2_1_0_0_1_n_n.lhsNonContracting by decide)]
  rfl
theorem dD_l1 (i : S8000x2.Idx) (q : dot_S8000x64_S64x2_S8000x2_1_0_0_1_n_n.contr.Idx) : (dot_S8000x64_S64x2_S8000x2_1_0_0_1_n_n.lhsIdx i q 1).val = (q ⟨0, by decide⟩).val :=
  dot_S8000x64_S64x2_S8000x2_1_0_0_1_n_n.lhsIdx_val_of_single rfl i q
theorem dD_r0 (i : S8000x2.Idx) (q : dot_S8000x64_S64x2_S8000x2_1_0_0_1_n_n.contr.Idx) : (dot_S8000x64_S64x2_S8000x2_1_0_0_1_n_n.rhsIdx i q 0).val = (q ⟨0, by decide⟩).val :=
  dot_S8000x64_S64x2_S8000x2_1_0_0_1_n_n.rhsIdx_val_of_single rfl i q
theorem dD_r1 (i : S8000x2.Idx) (q : dot_S8000x64_S64x2_S8000x2_1_0_0_1_n_n.contr.Idx) : (dot_S8000x64_S64x2_S8000x2_1_0_0_1_n_n.rhsIdx i q 1).val = (i 1).val := by
  unfold DotDims.rhsIdx
  rw [dif_neg (show ¬(1 : Fin S64x2.rank) ∈ dot_S8000x64_S64x2_S8000x2_1_0_0_1_n_n.rhsBatch by decide), dif_pos (show (1 : Fin S64x2.rank) ∈ dot_S8000x64_S64x2_S8000x2_1_0_0_1_n_n.rhsNonContracting by decide)]
  rfl

/-- A block of 11-wide rows times an 11×64 matrix, into a zero accumulator, at entry `(p, k)`. -/
theorem featProduct_entry (a : FVec Ideal S8000x11 .bf16) (w : FVec Ideal S11x64 .bf16) (p : Fin 8000) (k : Fin 64) :
    matmul dot_S8000x11_S11x64_S8000x64_1_0_0_1_n_n none a w (constant (F := Ideal) S8000x64 .f32 0x00000000#32) (ix2 p k)
      = ∑ j : Fin 11, a (ix2 p j) * w (ix2 j k) :=
  matmul_zero_sum dot_S8000x11_S11x64_S8000x64_1_0_0_1_n_n none rfl rfl dC_l0 dC_l1 dC_r0 dC_r1 a w (ix2 p k)

/-- A block of hidden features times the 64×2 output weights, into a zero accumulator, at entry `(p, j)`. -/
theorem outProduct_entry (a : FVec Ideal S8000x64 .bf16) (w : FVec Ideal S64x2 .bf16) (p : Fin 8000) (j : Fin 2) :
    matmul dot_S8000x64_S64x2_S8000x2_1_0_0_1_n_n none a w (constant (F := Ideal) S8000x2 .f32 0x00000000#32) (ix2 p j)
      = ∑ k : Fin 64, a (ix2 p k) * w (ix2 k j) :=
  matmul_zero_sum dot_S8000x64_S64x2_S8000x2_1_0_0_1_n_n none rfl rfl dD_l0 dD_l1 dD_r0 dD_r1 a w (ix2 p j)

/-- The hidden features of the block, at entry `(p, k)`. -/
theorem hidden_entry (v0 v3 v6 : Vec Ideal S8000x11 .f32) (v9 v11 v13 v15 : Vec Ideal S11x64 .f32) (v20 v28 : Vec Ideal S1x64 .f32)
    (p : Fin 8000) (k : Fin 64) :
    k2_pay5 (F := Ideal) v0 v3 v6 v9 v11 v13 v15 v20 v28 (ix2 p k)
      = hidden (R := 8000) v0 v3 v6 v9 (rowOf v20) v11 v13 (rowOf v28) v15 (ix2 p k) := by
  unfold k2_pay5
  simp only [hidden_ix2, linear_ix2, rowOf_ix1, truncf_apply, addf_apply, broadcastTo_1b_ab_apply, shapeCast_self,
    featProduct_entry]

/-- The two outputs of the block, at entry `(p, j)`, from the rounded hidden features and output weights. -/
theorem outputs_entry (v18 : FVec Ideal S64x2 .bf16) (v34 : FVec Ideal S8000x64 .bf16) (v36 : Vec Ideal S1x2 .f32)
    (p : Fin 8000) (j : Fin 2) :
    k2_pay1 (F := Ideal) v18 v34 v36 (ix2 p j) = outputs (R := 8000) v34 v18 (rowOf v36) (ix2 p j) := by
  unfold k2_pay1
  simp only [outputs_ix2, linear_ix2, rowOf_ix1, addf_apply, broadcastTo_1b_ab_apply, shapeCast_self, outProduct_entry]

/-- The rounded output weights are the output weights. -/
theorem outWeights_entry (v17 : Vec Ideal S64x2 .f32) (i : S64x2.Idx) : k2_pay4 (F := Ideal) v17 i = v17 i := rfl

/-- The first stored column is the first output. -/
theorem loc_entry (v18 : FVec Ideal S64x2 .bf16) (v34 : FVec Ideal S8000x64 .bf16) (v36 : Vec Ideal S1x2 .f32) (p : Fin 8000) :
    k2_pay2 (F := Ideal) v18 v34 v36 (ix2 p (0 : Fin 1)) = k2_pay1 (F := Ideal) v18 v34 v36 (ix2 p (0 : Fin 2)) := by
  unfold k2_pay2
  refine extractStridedSlice_apply _ _ _ _ _ fun a => ?_
  match a with
  | ⟨0, _⟩ => show p.val = 0 + p.val; omega
  | ⟨1, _⟩ => rfl

/-- The second stored column is the scale of the second output. -/
theorem scale_entry (v18 : FVec Ideal S64x2 .bf16) (v34 : FVec Ideal S8000x64 .bf16) (v36 : Vec Ideal S1x2 .f32) (p : Fin 8000) :
    k2_pay3 (F := Ideal) v18 v34 v36 (ix2 p (0 : Fin 1)) = scale (k2_pay1 (F := Ideal) v18 v34 v36 (ix2 p (1 : Fin 2))) := by
  have hcol : ∀ h : S8000x2.Slices ![0, 1] S8000x1,
      extractStridedSlice S8000x1 ![0, 1] (k2_pay1 (F := Ideal) v18 v34 v36) h (ix2 p (0 : Fin 1))
        = k2_pay1 (F := Ideal) v18 v34 v36 (ix2 p (1 : Fin 2)) := fun h => by
    refine extractStridedSlice_apply _ _ h _ _ fun a => ?_
    match a with
    | ⟨0, _⟩ => show p.val = 0 + p.val; omega
    | ⟨1, _⟩ => rfl
  rw [← scaleVec_eq, ← hcol Facts₀.slices_S8000x2_o0_1_S8000x1]
  rfl

end Cert.KernelIdeal.Blocks

end
-- ==== Proof.CombineArray.lean ====
/-
  The combining kernel's result array: its blocks put together.

  The kernel runs over 125 grid points; point `t` reads rows `8000·t … 8000·t + 7999` of the three 11-wide inputs
  (torso messages aggregated onto the joints, joint messages aggregated onto them, the joints' own features), the whole
  of the four 11×64 weight matrices, the 64×2 output weights and the three one-row biases, and writes back the same
  rows of a two-column result: column 0 the location, column 1 the scale. What a row keeps depends on that row of the
  three inputs only, and the blocks tile the result, so after the region it holds `headCols (outputs (hidden …))` of the
  arrays the region was entered with, at every index.
-/
import proofs.«168928_j48232482734726_2_alg».proof.Proof.Gen.KernelIdeal.Frame
import proofs.«168928_j48232482734726_2_alg».proof.Proof.CombineBlocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Combine

open Cert.KernelIdeal Cert.KernelIdeal.Gen Cert.KernelIdeal.Blocks Idealize.ShloMosaic.ValueIdx Cert.Gcn Cert.JointNet

theorem hz : (![0, 0] : Fin 2 → Nat) = fun _ => 0 := funext fun a => by fin_cases a <;> rfl

/-! ## One block -/

/-- Column 1 of row `p` of the block, as the second store's rectangle names it. -/
theorem col1_emb (p : Fin 8000) : r2_6.emb (ix2 p (0 : Fin 1)) = ix2 p (1 : Fin 2) := by
  funext a; apply Fin.ext
  match a with
  | ⟨0, _⟩ => simp only [Rect.emb_apply, Rect.off_unit, Rect.stride_unit, Nat.one_mul]; show 0 + p.val = p.val; omega
  | ⟨1, _⟩ => simp only [Rect.emb_apply, Rect.off_unit, Rect.stride_unit, Nat.one_mul]; rfl

/-- Column 0 of row `p` of the block, as the first store's rectangle names it. -/
theorem col0_emb (p : Fin 8000) : r2_5.emb (ix2 p (0 : Fin 1)) = ix2 p (0 : Fin 2) := by
  funext a; apply Fin.ext
  match a with
  | ⟨0, _⟩ => simp only [Rect.emb_apply, Rect.off_unit, Rect.stride_unit, Nat.one_mul]; show 0 + p.val = p.val; omega
  | ⟨1, _⟩ => simp only [Rect.emb_apply, Rect.off_unit, Rect.stride_unit, Nat.one_mul]; rfl

/-- What the body leaves in the result window's buffer, from the eleven input blocks: the head of the block's rows. -/
theorem block_eq (x0 x1 x2 : Vec Ideal S8000x11 .f32) (x3 : Vec Ideal S11x64 .f32) (x4 : Vec Ideal S1x64 .f32)
    (x5 x6 : Vec Ideal S11x64 .f32) (x7 : Vec Ideal S1x64 .f32) (x8 : Vec Ideal S11x64 .f32) (x9 : Vec Ideal S64x2 .f32)
    (x10 : Vec Ideal S1x2 .f32) (y : S8000x2.Idx) :
    out2_11 (F := Ideal) x0 x1 x2 x3 x4 x5 x6 x7 x8 x9 x10 y
      = headCols (R := 8000) (outputs (R := 8000) (hidden (R := 8000) x0 x1 x2 x3 (rowOf x4) x5 x6 (rowOf x7) x8) x9 (rowOf x10)) y := by
  have hB : (k2_pay5 (F := Ideal) x0 x1 x2 x3 x5 x6 x8 x4 x7 : S8000x64.Idx → EReal)
      = hidden (R := 8000) x0 x1 x2 x3 (rowOf x4) x5 x6 (rowOf x7) x8 := by
    funext i
    obtain ⟨p, k, rfl⟩ : ∃ (p : Fin 8000) (k : Fin 64), i = ix2 p k := ⟨i 0, i 1, eq_ix2 i⟩
    exact hidden_entry x0 x1 x2 x3 x5 x6 x8 x4 x7 p k
  have hA : (k2_pay4 (F := Ideal) x9 : S64x2.Idx → EReal) = x9 := rfl
  unfold out2_11
  simp only [View.ld_unit_zero (S := S8000x11) hz, View.ld_unit_zero (S := S11x64) hz, View.ld_unit_zero (S := S64x2) hz,
    View.ld_unit_zero (S := S1x64) hz, View.ld_unit_zero (S := S1x2) hz]
  refine View.canon_apply_of_pieces _ _ ?_ y (cover2_11 _ _ y)
  intro pc hpc x
  rcases List.mem_cons.mp hpc with rfl | hpc
  · obtain ⟨p, u, rfl⟩ : ∃ (p : Fin 8000) (u : Fin 1), x = ix2 p u := ⟨x 0, x 1, eq_ix2 x⟩
    obtain rfl : u = 0 := Subsingleton.elim _ _
    show k2_pay3 (F := Ideal) (k2_pay4 x9) (k2_pay5 x0 x1 x2 x3 x5 x6 x8 x4 x7) x10 (ix2 p (0 : Fin 1))
      = headCols (R := 8000) (outputs (R := 8000) (hidden (R := 8000) x0 x1 x2 x3 (rowOf x4) x5 x6 (rowOf x7) x8) x9 (rowOf x10)) (r2_6.emb (ix2 p (0 : Fin 1)))
    rw [col1_emb, headCols_scale, scale_entry, outputs_entry]
    exact congrArg scale (congrFun (congrArg₂ (fun H W => outputs (R := 8000) H W (rowOf x10)) hB hA) (ix2 p (1 : Fin 2)))
  · obtain rfl : pc = ⟨r2_5, _⟩ := List.mem_singleton.mp hpc
    obtain ⟨p, u, rfl⟩ : ∃ (p : Fin 8000) (u : Fin 1), x = ix2 p u := ⟨x 0, x 1, eq_ix2 x⟩
    obtain rfl : u = 0 := Subsingleton.elim _ _
    show k2_pay2 (F := Ideal) (k2_pay4 x9) (k2_pay5 x0 x1 x2 x3 x5 x6 x8 x4 x7) x10 (ix2 p (0 : Fin 1))
      = headCols (R := 8000) (outputs (R := 8000) (hidden (R := 8000) x0 x1 x2 x3 (rowOf x4) x5 x6 (rowOf x7) x8) x9 (rowOf x10)) (r2_5.emb (ix2 p (0 : Fin 1)))
    rw [col0_emb, headCols_loc, loc_entry, outputs_entry]
    exact congrFun (congrArg₂ (fun H W => outputs (R := 8000) H W (rowOf x10)) hB hA) (ix2 p (0 : Fin 2))

/-! ## The array -/

variable (V : (c : Dev nD) → (b : Ref sig .tc) → Buf (Elt Ideal) ((c : Thread nD τ).loc b))

/-- The printed index maps over the grid: the three row inputs and the result move one block per point, the weights
    and biases stay. -/
theorem idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = t.val ∧ win2_11.index t (1 : Fin 2) = 0 :=
  (by decide +kernel : ∀ t : Fin grid2.N, _)

/-- Row `p` of block `t` is row `8000·t + p` of the array. -/
def row (t : Fin cfg2.N) (p : Fin 8000) : Fin 1000000 :=
  ⟨8000 * t.val + p.val, by have h := t.isLt; have hN : cfg2.N = 125 := N_2; have := p.isLt; omega⟩

/-- The eleven arrays the region reads, as it finds them. -/
abbrev aggT (c : Dev nD) : S1000000x11.Idx → EReal := V c main_v13
abbrev aggJ (c : Dev nD) : S1000000x11.Idx → EReal := V c main_v23
abbrev featJ (c : Dev nD) : S1000000x11.Idx → EReal := V c main_v1
abbrev wRelT (c : Dev nD) : S11x64.Idx → EReal := V c main_arg10
abbrev bRelT (c : Dev nD) : S1x64.Idx → EReal := V c main_v24
abbrev wRootT (c : Dev nD) : S11x64.Idx → EReal := V c main_arg12
abbrev wRelJ (c : Dev nD) : S11x64.Idx → EReal := V c main_arg13
abbrev bRelJ (c : Dev nD) : S1x64.Idx → EReal := V c main_v25
abbrev wRootJ (c : Dev nD) : S11x64.Idx → EReal := V c main_arg15
abbrev wOut (c : Dev nD) : S64x2.Idx → EReal := V c main_arg16
abbrev bOut (c : Dev nD) : S1x2.Idx → EReal := V c main_v26

/-- The array the region leaves: the head of the arrays it was entered with. -/
abbrev result (c : Dev nD) : S1000000x2.Idx → EReal :=
  headCols (R := 1000000) (outputs (R := 1000000) (hidden (R := 1000000) (aggT V c) (aggJ V c) (featJ V c) (wRelT V c) (rowOf (bRelT V c))
    (wRootT V c) (wRelJ V c) (rowOf (bRelJ V c)) (wRootJ V c)) (wOut V c) (rowOf (bOut V c)))

/-- What point `t` writes back is block `t` of the head. -/
theorem flushed_eq (c : Dev nD) (t : Fin cfg2.N) :
    (dat2 V c).flushed 11 t = ((cfg2.win 11).blk t).view.read (Elt Ideal) (result V c) := by
  show (cfg2.win 11).cut (grid2.coords t) ((dat2 V c).after 11 t) = _
  rw [after2_11]
  obtain ⟨e0_0, e0_1, e1_0, e1_1, e2_0, e2_1, e3_0, e3_1, e4_0, e4_1, e5_0, e5_1, e6_0, e6_1, e7_0, e7_1, e8_0, e8_1, e9_0, e9_1,
    e10_0, e10_1, e11_0, e11_1⟩ := idx t
  funext j
  obtain ⟨p, q, rfl⟩ : ∃ (p : Fin 8000) (q : Fin 2), j = ix2 p q := ⟨j 0, j 1, eq_ix2 j⟩
  refine (block_eq (iblk2 V c 0 t) (iblk2 V c 1 t) (iblk2 V c 2 t) (iblk2 V c 3 t) (iblk2 V c 4 t) (iblk2 V c 5 t) (iblk2 V c 6 t)
    (iblk2 V c 7 t) (iblk2 V c 8 t) (iblk2 V c 9 t) (iblk2 V c 10 t) (ix2 p q)).trans ?_
  have h11 : ((cfg2.win 11).blk t).view.emb (ix2 p q) = ix2 (row t p) q := by
    funext a; apply Fin.ext
    match a with
    | ⟨0, _⟩ => show win2_11.index t (0 : Fin 2) * 8000 + 1 * p.val = 8000 * t.val + p.val; rw [e11_0]; omega
    | ⟨1, _⟩ => show win2_11.index t (1 : Fin 2) * 2 + 1 * q.val = q.val; rw [e11_1]; omega
  have hr0 : ∀ k : Fin 11, ((cfg2.win 0).blk t).view.emb (ix2 p k) = ix2 (row t p) k := fun k => by
    funext a; apply Fin.ext
    match a with
    | ⟨0, _⟩ => show win2_0.index t (0 : Fin 2) * 8000 + 1 * p.val = 8000 * t.val + p.val; rw [e0_0]; omega
    | ⟨1, _⟩ => show win2_0.index t (1 : Fin 2) * 11 + 1 * k.val = k.val; rw [e0_1]; omega
  have hr1 : ∀ k : Fin 11, ((cfg2.win 1).blk t).view.emb (ix2 p k) = ix2 (row t p) k := fun k => by
    funext a; apply Fin.ext
    match a with
    | ⟨0, _⟩ => show win2_1.index t (0 : Fin 2) * 8000 + 1 * p.val = 8000 * t.val + p.val; rw [e1_0]; omega
    | ⟨1, _⟩ => show win2_1.index t (1 : Fin 2) * 11 + 1 * k.val = k.val; rw [e1_1]; omega
  have hr2 : ∀ k : Fin 11, ((cfg2.win 2).blk t).view.emb (ix2 p k) = ix2 (row t p) k := fun k => by
    funext a; apply Fin.ext
    match a with
    | ⟨0, _⟩ => show win2_2.index t (0 : Fin 2) * 8000 + 1 * p.val = 8000 * t.val + p.val; rw [e2_0]; omega
    | ⟨1, _⟩ => show win2_2.index t (1 : Fin 2) * 11 + 1 * k.val = k.val; rw [e2_1]; omega
  have hw3 : ∀ y : S11x64.Idx, ((cfg2.win 3).blk t).view.emb y = y := fun y => by
    funext a; apply Fin.ext
    match a with
    | ⟨0, _⟩ => show win2_3.index t (0 : Fin 2) * 11 + 1 * (y 0).val = (y 0).val; rw [e3_0]; omega
    | ⟨1, _⟩ => show win2_3.index t (1 : Fin 2) * 64 + 1 * (y 1).val = (y 1).val; rw [e3_1]; omega
  have hw4 : ∀ y : S1x64.Idx, ((cfg2.win 4).blk t).view.emb y = y := fun y => by
    funext a; apply Fin.ext
    match a with
    | ⟨0, _⟩ => show win2_4.index t (0 : Fin 2) * 1 + 1 * (y 0).val = (y 0).val; rw [e4_0]; omega
    | ⟨1, _⟩ => show win2_4.index t (1 : Fin 2) * 64 + 1 * (y 1).val = (y 1).val; rw [e4_1]; omega
  have hw5 : ∀ y : S11x64.Idx, ((cfg2.win 5).blk t).view.emb y = y := fun y => by
    funext a; apply Fin.ext
    match a with
    | ⟨0, _⟩ => show win2_5.index t (0 : Fin 2) * 11 + 1 * (y 0).val = (y 0).val; rw [e5_0]; omega
    | ⟨1, _⟩ => show win2_5.index t (1 : Fin 2) * 64 + 1 * (y 1).val = (y 1).val; rw [e5_1]; omega
  have hw6 : ∀ y : S11x64.Idx, ((cfg2.win 6).blk t).view.emb y = y := fun y => by
    funext a; apply Fin.ext
    match a with
    | ⟨0, _⟩ => show win2_6.index t (0 : Fin 2) * 11 + 1 * (y 0).val = (y 0).val; rw [e6_0]; omega
    | ⟨1, _⟩ => show win2_6.index t (1 : Fin 2) * 64 + 1 * (y 1).val = (y 1).val; rw [e6_1]; omega
  have hw7 : ∀ y : S1x64.Idx, ((cfg2.win 7).blk t).view.emb y = y := fun y => by
    funext a; apply Fin.ext
    match a with
    | ⟨0, _⟩ => show win2_7.index t (0 : Fin 2) * 1 + 1 * (y 0).val = (y 0).val; rw [e7_0]; omega
    | ⟨1, _⟩ => show win2_7.index t (1 : Fin 2) * 64 + 1 * (y 1).val = (y 1).val; rw [e7_1]; omega
  have hw8 : ∀ y : S11x64.Idx, ((cfg2.win 8).blk t).view.emb y = y := fun y => by
    funext a; apply Fin.ext
    match a with
    | ⟨0, _⟩ => show win2_8.index t (0 : Fin 2) * 11 + 1 * (y 0).val = (y 0).val; rw [e8_0]; omega
    | ⟨1, _⟩ => show win2_8.index t (1 : Fin 2) * 64 + 1 * (y 1).val = (y 1).val; rw [e8_1]; omega
  have hw9 : ∀ y : S64x2.Idx, ((cfg2.win 9).blk t).view.emb y = y := fun y => by
    funext a; apply Fin.ext
    match a with
    | ⟨0, _⟩ => show win2_9.index t (0 : Fin 2) * 64 + 1 * (y 0).val = (y 0).val; rw [e9_0]; omega
    | ⟨1, _⟩ => show win2_9.index t (1 : Fin 2) * 2 + 1 * (y 1).val = (y 1).val; rw [e9_1]; omega
  have hw10 : ∀ y : S1x2.Idx, ((cfg2.win 10).blk t).view.emb y = y := fun y => by
    funext a; apply Fin.ext
    match a with
    | ⟨0, _⟩ => show win2_10.index t (0 : Fin 2) * 1 + 1 * (y 0).val = (y 0).val; rw [e10_0]; omega
    | ⟨1, _⟩ => show win2_10.index t (1 : Fin 2) * 2 + 1 * (y 1).val = (y 1).val; rw [e10_1]; omega
  have b3 : (iblk2 V c 3 t : S11x64.Idx → EReal) = wRelT V c := funext fun y => congrArg (wRelT V c) (hw3 y)
  have b4 : (iblk2 V c 4 t : S1x64.Idx → EReal) = bRelT V c := funext fun y => congrArg (bRelT V c) (hw4 y)
  have b5 : (iblk2 V c 5 t : S11x64.Idx → EReal) = wRootT V c := funext fun y => congrArg (wRootT V c) (hw5 y)
  have b6 : (iblk2 V c 6 t : S11x64.Idx → EReal) = wRelJ V c := funext fun y => congrArg (wRelJ V c) (hw6 y)
  have b7 : (iblk2 V c 7 t : S1x64.Idx → EReal) = bRelJ V c := funext fun y => congrArg (bRelJ V c) (hw7 y)
  have b8 : (iblk2 V c 8 t : S11x64.Idx → EReal) = wRootJ V c := funext fun y => congrArg (wRootJ V c) (hw8 y)
  have b9 : (iblk2 V c 9 t : S64x2.Idx → EReal) = wOut V c := funext fun y => congrArg (wOut V c) (hw9 y)
  have b10 : (iblk2 V c 10 t : S1x2.Idx → EReal) = bOut V c := funext fun y => congrArg (bOut V c) (hw10 y)
  rw [b3, b4, b5, b6, b7, b8, b9, b10]
  show _ = result V c (((cfg2.win 11).blk t).view.emb (ix2 p q))
  rw [h11]
  exact head_rows (iblk2 V c 0 t) (iblk2 V c 1 t) (iblk2 V c 2 t) (aggT V c) (aggJ V c) (featJ V c) (wRelT V c) (rowOf (bRelT V c))
    (wRootT V c) (wRelJ V c) (rowOf (bRelJ V c)) (wRootJ V c) (wOut V c) (rowOf (bOut V c)) p (row t p) q
    (fun k => congrArg (aggT V c) (hr0 k)) (fun k => congrArg (aggJ V c) (hr1 k)) (fun k => congrArg (featJ V c) (hr2 k))

/-- An index of the result is in point `t`'s block iff each coordinate is in the block's range on its axis. -/
theorem mem_blk (t : Fin cfg2.N) (i : S1000000x2.Idx) :
    i ∈ ((cfg2.win 11).blk t).view.set ↔ ∀ a : Fin 2, win2_11.index t a * S8000x2.size a ≤ (i a).val ∧ (i a).val < win2_11.index t a * S8000x2.size a + S8000x2.size a := by
  show i ∈ ((View.whole main_v27).slice (win2_11.rect t)).set ↔ _
  rw [View.set_slice_whole, Rect.mem_set_unit]
  exact Iff.rfl

/-- Every row of the result lies in the block of the point numbered by the row divided by 8000. -/
theorem cover (i : S1000000x2.Idx) : ∃ t : Fin cfg2.N, (cfg2.win 11).flush t = true ∧ i ∈ ((cfg2.win 11).blk t).view.set := by
  have hi0 : (i 0).val < 1000000 := (i 0).isLt
  have hi1 : (i 1).val < 2 := (i 1).isLt
  have hN : cfg2.N = 125 := N_2
  obtain ⟨t, ht⟩ : ∃ t : Fin cfg2.N, t.val = (i 0).val / 8000 := ⟨⟨(i 0).val / 8000, by rw [hN]; omega⟩, rfl⟩
  obtain ⟨e0_0, e0_1, e1_0, e1_1, e2_0, e2_1, e3_0, e3_1, e4_0, e4_1, e5_0, e5_1, e6_0, e6_1, e7_0, e7_1, e8_0, e8_1, e9_0, e9_1,
    e10_0, e10_1, e11_0, e11_1⟩ := idx t
  refine ⟨t, flush2_11 t, ?_⟩
  rw [mem_blk]
  intro a
  match a with
  | ⟨0, _⟩ => show win2_11.index t (0 : Fin 2) * 8000 ≤ (i 0).val ∧ (i 0).val < win2_11.index t (0 : Fin 2) * 8000 + 8000; rw [e11_0, ht]; omega
  | ⟨1, _⟩ => show win2_11.index t (1 : Fin 2) * 2 ≤ (i 1).val ∧ (i 1).val < win2_11.index t (1 : Fin 2) * 2 + 2; rw [e11_1]; omega

/-- The result array after the region. -/
theorem final (c : Dev nD) : (dat2 V c).arrAt 11 cfg2.N = result V c :=
  (dat2 V c).arrAt_eq_of_cover 11 (result V c) (fun t _ => flushed_eq V c t) cover

end Cert.KernelIdeal.Combine

end
-- ==== Proof.FoldHead.lean ====
/-
  The two results, joint by joint.

  The combining kernel is entered with the two aggregates, the joint features, the weights and the re-cast biases,
  and leaves the two-column array of what every joint keeps. The closing host stretch cuts column 0 and column 1 out
  and re-casts each to a vector. So the first result at joint `r` is the first output of `r`, and the second is the
  scale of its second output, both as functions of the launch arrays.
-/
import proofs.«168928_j48232482734726_2_alg».proof.Proof.Gen.KernelIdeal.Frame
import proofs.«168928_j48232482734726_2_alg».proof.Proof.FoldEdges
import proofs.«168928_j48232482734726_2_alg».proof.Proof.CombineArray
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo

namespace Cert.KernelIdeal.Fold

open Cert.KernelIdeal Cert.KernelIdeal.Gen Idealize.ShloMosaic.ValueIdx Cert.Gcn Cert.JointNet

variable (m : (ℓ : Loc nD τ sig) → Buf (Elt Ideal) ℓ) (ρ : Dev nD → PrngReg)

/-- The two outputs of every joint, from the launch arrays. -/
def net (c : Dev nD) : S1000000x2.Idx → EReal :=
  outputs (R := 1000000) (hidden (R := 1000000)
      (aggTorso (xt m c) (m ((c : Thread nD τ).loc main_arg2)) (m ((c : Thread nD τ).loc main_arg3)))
      (aggJoint (xj m c) (m ((c : Thread nD τ).loc main_arg4)) (m ((c : Thread nD τ).loc main_arg5)))
      (xj m c) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))
    (m ((c : Thread nD τ).loc main_arg16)) (m ((c : Thread nD τ).loc main_arg17))

/-- After the combining kernel its result array holds what every joint keeps. -/
theorem W6_kept (c : Dev nD) : (W6 m ρ c (Proc.devRef .tc main_v27) : S1000000x2.Idx → EReal) = headCols (R := 1000000) (net m c) := by
  refine (W6_arr m ρ c 11).trans ((Combine.final (V5 m ρ) c).trans ?_)
  show headCols (R := 1000000) (outputs (R := 1000000) (hidden (R := 1000000)
      (W5 m ρ c (Proc.devRef .tc main_v13)) (W5 m ρ c (Proc.devRef .tc main_v23)) (W5 m ρ c (Proc.devRef .tc main_v1))
      (W5 m ρ c (Proc.devRef .tc main_arg10)) (rowOf (K := 64) (W5 m ρ c (Proc.devRef .tc main_v24)))
      (W5 m ρ c (Proc.devRef .tc main_arg12)) (W5 m ρ c (Proc.devRef .tc main_arg13))
      (rowOf (K := 64) (W5 m ρ c (Proc.devRef .tc main_v25))) (W5 m ρ c (Proc.devRef .tc main_arg15)))
      (W5 m ρ c (Proc.devRef .tc main_arg16)) (rowOf (K := 2) (W5 m ρ c (Proc.devRef .tc main_v26)))) = _
  rw [W5_aggTorso, W5_aggJoint, W5_pass_v1, W4_joint, W5_pass_arg10, W5_pass_arg12, W5_pass_arg13, W5_pass_arg15, W5_pass_arg16,
    W4_keep m ρ c main_arg10 (by decide) (by decide) (by decide) (by decide),
    W4_keep m ρ c main_arg12 (by decide) (by decide) (by decide) (by decide),
    W4_keep m ρ c main_arg13 (by decide) (by decide) (by decide) (by decide),
    W4_keep m ρ c main_arg15 (by decide) (by decide) (by decide) (by decide),
    W4_keep m ρ c main_arg16 (by decide) (by decide) (by decide) (by decide),
    W5_bias24, W5_bias25, W5_bias26, rowOf_shapeCast, rowOf_shapeCast, rowOf_shapeCast]
  rfl

/-- The first result at joint `r`: its first output. -/
theorem loc_at (c : Dev nD) (r : Fin 1000000) :
    (W7 m ρ c (Proc.devRef .tc main_v29) : S1000000.Idx → EReal) (ix1 r) = net m c (ix2 r (0 : Fin 2)) := by
  have h : (W7 m ρ c (Proc.devRef .tc main_v29) : S1000000.Idx → EReal)
      = shapeCast S1000000 (extractStridedSlice S1000000x1 ![0, 0] (headCols (R := 1000000) (net m c)) Facts₀.slices_S1000000x2_S1000000x1_0_0)
          Facts₀.shapeCasts_S1000000x1_S1000000 := by
    show StableHlo.after hostOps3 (W6 m ρ c) (Proc.devRef .tc main_v29) = _
    after_results
    rw [W6_kept]
    rfl
  rw [h]
  refine ((shapeCast_apply _ _ (ix1 r) (ix2 r (0 : Fin 1)) ?_).trans ?_).trans (headCols_loc (net m c) r)
  · rewrite [Shape.rowMajor_val_two, Shape.rowMajor_val_one]
    show r.val * 1 + 0 = r.val
    omega
  · refine extractStridedSlice_apply _ _ _ (ix2 r (0 : Fin 1)) (ix2 r (0 : Fin 2)) fun a => ?_
    match a with
    | ⟨0, _⟩ => show r.val = 0 + r.val; omega
    | ⟨1, _⟩ => rfl

/-- The second result at joint `r`: the scale of its second output. -/
theorem scale_at (c : Dev nD) (r : Fin 1000000) :
    (W7 m ρ c (Proc.devRef .tc main_v31) : S1000000.Idx → EReal) (ix1 r) = scale (net m c (ix2 r (1 : Fin 2))) := by
  have h : (W7 m ρ c (Proc.devRef .tc main_v31) : S1000000.Idx → EReal)
      = shapeCast S1000000 (extractStridedSlice S1000000x1 ![0, 1] (headCols (R := 1000000) (net m c)) Facts₀.slices_S1000000x2_S1000000x1_0_1)
          Facts₀.shapeCasts_S1000000x1_S1000000 := by
    show StableHlo.after hostOps3 (W6 m ρ c) (Proc.devRef .tc main_v31) = _
    after_results
    rw [W6_kept]
    rfl
  rw [h]
  refine ((shapeCast_apply _ _ (ix1 r) (ix2 r (0 : Fin 1)) ?_).trans ?_).trans (headCols_scale (net m c) r)
  · rewrite [Shape.rowMajor_val_two, Shape.rowMajor_val_one]
    show r.val * 1 + 0 = r.val
    omega
  · refine extractStridedSlice_apply _ _ _ (ix2 r (0 : Fin 1)) (ix2 r (1 : Fin 2)) fun a => ?_
    match a with
    | ⟨0, _⟩ => show r.val = 0 + r.val; omega
    | ⟨1, _⟩ => rfl

end Cert.KernelIdeal.Fold

end
-- ==== Proof.RefSide.lean ====
/-
  The reference network read at an index, at the ideal values.

  Per joint the reference projects the joint's two coordinates to 11 features (`x0 · x6 + x7`), per torso its 11 inputs to 11
  features (`x1 · x8 + x9`), adds up the gathered torso and joint messages onto every joint, and combines the three 11-wide
  rows of a joint into 64 hidden features, `((((Atj·x10 + x11) + Xj·x12) + Ajj·x13) + x14) + Xj·x15`, then two outputs
  `hidden · x16 + x17`: the first is returned as it is, the second through `max(1e-4, softplus(· + β))`. Every stage but the two
  gathers and the two scatter-adds is a matrix product, a broadcast, a slice, a reshape or an entry-by-entry operation, so its
  entry at an index is read from its operands at an index; chaining those readings gives the two projections as
  `addBias (linear · ·) ·`, and the two results of joint `r` as `outputs (hidden Atj Ajj Xj …) x16 x17` at `(r, 0)` and the `scale` of
  it at `(r, 1)`, with the two aggregated arrays `Atj`, `Ajj` and the joint projection `Xj` kept as they stand.
-/
import proofs.«168928_j48232482734726_2_alg».proof.Proof.Gen.ReferenceIdeal.Read
import proofs.«168928_j48232482734726_2_alg».proof.Proof.LibDenseSpec
import proofs.«168928_j48232482734726_2_alg».proof.Proof.LibBiasRow
import proofs.«168928_j48232482734726_2_alg».proof.Proof.HeadSpec

noncomputable section

namespace Cert.ReferenceIdeal.Spec

open Cert.ReferenceIdeal Cert.ReferenceIdeal.Read Idealize.ShloMosaic Idealize.ShloMosaic.ValueIdx Cert.Gcn Cert.JointNet

/-! ## The index functions of the stages, at an index given by its coordinates -/

theorem lidx0 (r : Fin 1000000) (c : Fin 11) (k : Fin 2) : lidx_main_v0 (ix2 r c) k = ix2 r k :=
  funext fun a => Fin.ext (by match a with | ⟨0, _⟩ => rfl | ⟨1, _⟩ => rfl)
theorem ridx0 (r : Fin 1000000) (c : Fin 11) (k : Fin 2) : ridx_main_v0 (ix2 r c) k = ix2 k c :=
  funext fun a => Fin.ext (by match a with | ⟨0, _⟩ => rfl | ⟨1, _⟩ => rfl)
theorem lidx4 (r : Fin 200000) (c : Fin 11) (k : Fin 11) : lidx_main_v4 (ix2 r c) k = ix2 r k :=
  funext fun a => Fin.ext (by match a with | ⟨0, _⟩ => rfl | ⟨1, _⟩ => rfl)
theorem ridx4 (r : Fin 200000) (c : Fin 11) (k : Fin 11) : ridx_main_v4 (ix2 r c) k = ix2 k c :=
  funext fun a => Fin.ext (by match a with | ⟨0, _⟩ => rfl | ⟨1, _⟩ => rfl)
theorem lidx28 (r : Fin 1000000) (c : Fin 64) (k : Fin 11) : lidx_main_v28 (ix2 r c) k = ix2 r k :=
  funext fun a => Fin.ext (by match a with | ⟨0, _⟩ => rfl | ⟨1, _⟩ => rfl)
theorem ridx28 (r : Fin 1000000) (c : Fin 64) (k : Fin 11) : ridx_main_v28 (ix2 r c) k = ix2 k c :=
  funext fun a => Fin.ext (by match a with | ⟨0, _⟩ => rfl | ⟨1, _⟩ => rfl)
theorem lidx32 (r : Fin 1000000) (c : Fin 64) (k : Fin 11) : lidx_main_v32 (ix2 r c) k = ix2 r k :=
  funext fun a => Fin.ext (by match a with | ⟨0, _⟩ => rfl | ⟨1, _⟩ => rfl)
theorem ridx32 (r : Fin 1000000) (c : Fin 64) (k : Fin 11) : ridx_main_v32 (ix2 r c) k = ix2 k c :=
  funext fun a => Fin.ext (by match a with | ⟨0, _⟩ => rfl | ⟨1, _⟩ => rfl)
theorem lidx34 (r : Fin 1000000) (c : Fin 64) (k : Fin 11) : lidx_main_v34 (ix2 r c) k = ix2 r k :=
  funext fun a => Fin.ext (by match a with | ⟨0, _⟩ => rfl | ⟨1, _⟩ => rfl)
theorem ridx34 (r : Fin 1000000) (c : Fin 64) (k : Fin 11) : ridx_main_v34 (ix2 r c) k = ix2 k c :=
  funext fun a => Fin.ext (by match a with | ⟨0, _⟩ => rfl | ⟨1, _⟩ => rfl)
theorem lidx39 (r : Fin 1000000) (c : Fin 64) (k : Fin 11) : lidx_main_v39 (ix2 r c) k = ix2 r k :=
  funext fun a => Fin.ext (by match a with | ⟨0, _⟩ => rfl | ⟨1, _⟩ => rfl)
theorem ridx39 (r : Fin 1000000) (c : Fin 64) (k : Fin 11) : ridx_main_v39 (ix2 r c) k = ix2 k c :=
  funext fun a => Fin.ext (by match a with | ⟨0, _⟩ => rfl | ⟨1, _⟩ => rfl)
theorem lidx41 (r : Fin 1000000) (c : Fin 2) (k : Fin 64) : lidx_main_v41 (ix2 r c) k = ix2 r k :=
  funext fun a => Fin.ext (by match a with | ⟨0, _⟩ => rfl | ⟨1, _⟩ => rfl)
theorem ridx41 (r : Fin 1000000) (c : Fin 2) (k : Fin 64) : ridx_main_v41 (ix2 r c) k = ix2 k c :=
  funext fun a => Fin.ext (by match a with | ⟨0, _⟩ => rfl | ⟨1, _⟩ => rfl)
theorem idx2 (r : Fin 1000000) (c : Fin 11) : idx_main_v2 (ix2 r c) = ix2 (0 : Fin 1) c :=
  funext fun a => Fin.ext (by match a with | ⟨0, _⟩ => rfl | ⟨1, _⟩ => rfl)
theorem idx1 (c : Fin 11) : idx_main_v1 (ix2 (0 : Fin 1) c) = ix1 c :=
  funext fun a => Fin.ext (by match a with | ⟨0, _⟩ => rfl)
theorem idx6 (r : Fin 200000) (c : Fin 11) : idx_main_v6 (ix2 r c) = ix2 (0 : Fin 1) c :=
  funext fun a => Fin.ext (by match a with | ⟨0, _⟩ => rfl | ⟨1, _⟩ => rfl)
theorem idx5 (c : Fin 11) : idx_main_v5 (ix2 (0 : Fin 1) c) = ix1 c :=
  funext fun a => Fin.ext (by match a with | ⟨0, _⟩ => rfl)
theorem idx30 (r : Fin 1000000) (c : Fin 64) : idx_main_v30 (ix2 r c) = ix2 (0 : Fin 1) c :=
  funext fun a => Fin.ext (by match a with | ⟨0, _⟩ => rfl | ⟨1, _⟩ => rfl)
theorem idx29 (c : Fin 64) : idx_main_v29 (ix2 (0 : Fin 1) c) = ix1 c :=
  funext fun a => Fin.ext (by match a with | ⟨0, _⟩ => rfl)
theorem idx37 (r : Fin 1000000) (c : Fin 64) : idx_main_v37 (ix2 r c) = ix2 (0 : Fin 1) c :=
  funext fun a => Fin.ext (by match a with | ⟨0, _⟩ => rfl | ⟨1, _⟩ => rfl)
theorem idx36 (c : Fin 64) : idx_main_v36 (ix2 (0 : Fin 1) c) = ix1 c :=
  funext fun a => Fin.ext (by match a with | ⟨0, _⟩ => rfl)
theorem idx43 (r : Fin 1000000) (c : Fin 2) : idx_main_v43 (ix2 r c) = ix2 (0 : Fin 1) c :=
  funext fun a => Fin.ext (by match a with | ⟨0, _⟩ => rfl | ⟨1, _⟩ => rfl)
theorem idx42 (c : Fin 2) : idx_main_v42 (ix2 (0 : Fin 1) c) = ix1 c :=
  funext fun a => Fin.ext (by match a with | ⟨0, _⟩ => rfl)
theorem idx46 (r : Fin 1000000) : idx_main_v46 (ix1 r) = ix2 r (0 : Fin 1) :=
  funext fun a => Fin.ext (by match a with | ⟨0, _⟩ => exact Nat.div_one _ | ⟨1, _⟩ => rfl)
theorem idx45 (r : Fin 1000000) : idx_main_v45 (ix2 r (0 : Fin 1)) = ix2 r (0 : Fin 2) :=
  funext fun a => Fin.ext (by match a with | ⟨0, _⟩ => rfl | ⟨1, _⟩ => rfl)
theorem idx48 (r : Fin 1000000) : idx_main_v48 (ix1 r) = ix2 r (0 : Fin 1) :=
  funext fun a => Fin.ext (by match a with | ⟨0, _⟩ => exact Nat.div_one _ | ⟨1, _⟩ => rfl)
theorem idx47 (r : Fin 1000000) : idx_main_v47 (ix2 r (0 : Fin 1)) = ix2 r (1 : Fin 2) :=
  funext fun a => Fin.ext (by match a with | ⟨0, _⟩ => rfl | ⟨1, _⟩ => rfl)

/-! ## The two input projections -/

variable (x0 : (⟨S1000000x2, .f32⟩ : BufTy).Contents (Elt Ideal)) (x1 : (⟨S200000x11, .f32⟩ : BufTy).Contents (Elt Ideal))
  (x2 x3 : (⟨S2000000, .i32⟩ : BufTy).Contents (Elt Ideal)) (x4 x5 : (⟨S16000000, .i32⟩ : BufTy).Contents (Elt Ideal))
  (x6 : (⟨S2x11, .f32⟩ : BufTy).Contents (Elt Ideal)) (x7 : (⟨S11, .f32⟩ : BufTy).Contents (Elt Ideal))
  (x8 : (⟨S11x11, .f32⟩ : BufTy).Contents (Elt Ideal)) (x9 : (⟨S11, .f32⟩ : BufTy).Contents (Elt Ideal))
  (x10 : (⟨S11x64, .f32⟩ : BufTy).Contents (Elt Ideal)) (x11 : (⟨S64, .f32⟩ : BufTy).Contents (Elt Ideal))
  (x12 x13 : (⟨S11x64, .f32⟩ : BufTy).Contents (Elt Ideal)) (x14 : (⟨S64, .f32⟩ : BufTy).Contents (Elt Ideal))
  (x15 : (⟨S11x64, .f32⟩ : BufTy).Contents (Elt Ideal)) (x16 : (⟨S64x2, .f32⟩ : BufTy).Contents (Elt Ideal))
  (x17 : (⟨S2, .f32⟩ : BufTy).Contents (Elt Ideal))

/-- The joint projection: entry `(r, q)` is `∑ k, x0[r,k] · x6[k,q] + x7[q]`. -/
theorem jointFeat_eq :
    val_main_v3 (F := Ideal) x0 x6 x7
      = addBias (R := 1000000) (K := 11) (linear (R := 1000000) (K := 2) (N := 11) x0 x6) x7 := by
  funext i
  obtain ⟨r, q, rfl⟩ : ∃ (r : Fin 1000000) (q : Fin 11), i = ix2 r q := ⟨i 0, i 1, eq_ix2 i⟩
  rw [val_main_v3_apply, val_main_v0_apply, val_main_v2_apply, val_main_v1_apply, addBias_ix2, linear_ix2]
  simp only [lidx0, ridx0, idx2, idx1, Ideal.addf_def]

/-- The torso projection: entry `(r, q)` is `∑ k, x1[r,k] · x8[k,q] + x9[q]`. -/
theorem torsoFeat_eq :
    val_main_v7 (F := Ideal) x1 x8 x9
      = addBias (R := 200000) (K := 11) (linear (R := 200000) (K := 11) (N := 11) x1 x8) x9 := by
  funext i
  obtain ⟨r, q, rfl⟩ : ∃ (r : Fin 200000) (q : Fin 11), i = ix2 r q := ⟨i 0, i 1, eq_ix2 i⟩
  rw [val_main_v7_apply, val_main_v4_apply, val_main_v6_apply, val_main_v5_apply, addBias_ix2, linear_ix2]
  simp only [lidx4, ridx4, idx6, idx5, Ideal.addf_def]

/-! ## The head -/

/-- The 64 hidden features of joint `r`, from the two aggregated arrays and the joint projection. -/
theorem hidden_read (r : Fin 1000000) (c : Fin 64) :
    val_main_v40 (F := Ideal) x0 x1 x2 x3 x4 x5 x6 x7 x8 x9 x10 x11 x12 x13 x14 x15 (ix2 r c)
      = hidden (R := 1000000) (val_main_v17 (F := Ideal) x1 x2 x3 x8 x9) (val_main_v27 (F := Ideal) x0 x4 x5 x6 x7)
          (val_main_v3 (F := Ideal) x0 x6 x7) x10 x11 x12 x13 x14 x15 (ix2 r c) := by
  rw [val_main_v40_apply, val_main_v38_apply, val_main_v35_apply, val_main_v33_apply, val_main_v31_apply, val_main_v39_apply,
    val_main_v37_apply, val_main_v36_apply, val_main_v34_apply, val_main_v32_apply, val_main_v30_apply, val_main_v29_apply,
    val_main_v28_apply, hidden_ix2, linear_ix2, linear_ix2, linear_ix2, linear_ix2]
  simp only [lidx28, ridx28, lidx32, ridx32, lidx34, ridx34, lidx39, ridx39, idx30, idx29, idx37, idx36, Ideal.addf_def]

/-- The two outputs of joint `r`. -/
theorem outputs_read (r : Fin 1000000) (j : Fin 2) :
    val_main_v44 (F := Ideal) x0 x1 x2 x3 x4 x5 x6 x7 x8 x9 x10 x11 x12 x13 x14 x15 x16 x17 (ix2 r j)
      = outputs (R := 1000000) (hidden (R := 1000000) (val_main_v17 (F := Ideal) x1 x2 x3 x8 x9)
          (val_main_v27 (F := Ideal) x0 x4 x5 x6 x7) (val_main_v3 (F := Ideal) x0 x6 x7) x10 x11 x12 x13 x14 x15) x16 x17 (ix2 r j) := by
  rw [val_main_v44_apply, val_main_v41_apply, val_main_v43_apply, val_main_v42_apply, outputs_ix2, linear_ix2]
  simp only [lidx41, ridx41, idx43, idx42, hidden_read, Ideal.addf_def]

/-- The first result: the first output of every joint. -/
theorem loc_eq (r : Fin 1000000) :
    val_main_v46 (F := Ideal) x0 x1 x2 x3 x4 x5 x6 x7 x8 x9 x10 x11 x12 x13 x14 x15 x16 x17 (ix1 r)
      = outputs (R := 1000000) (hidden (R := 1000000) (val_main_v17 (F := Ideal) x1 x2 x3 x8 x9)
          (val_main_v27 (F := Ideal) x0 x4 x5 x6 x7) (val_main_v3 (F := Ideal) x0 x6 x7) x10 x11 x12 x13 x14 x15) x16 x17
          (ix2 r (0 : Fin 2)) := by
  rw [val_main_v46_apply, val_main_v45_apply, idx46, idx45, outputs_read]

/-- The second result: the scale of the second output of every joint. -/
theorem scale_eq (r : Fin 1000000) :
    val_main_v52 (F := Ideal) x0 x1 x2 x3 x4 x5 x6 x7 x8 x9 x10 x11 x12 x13 x14 x15 x16 x17 (ix1 r)
      = scale (outputs (R := 1000000) (hidden (R := 1000000) (val_main_v17 (F := Ideal) x1 x2 x3 x8 x9)
          (val_main_v27 (F := Ideal) x0 x4 x5 x6 x7) (val_main_v3 (F := Ideal) x0 x6 x7) x10 x11 x12 x13 x14 x15) x16 x17
          (ix2 r (1 : Fin 2))) := by
  have h : val_main_v48 (F := Ideal) x0 x1 x2 x3 x4 x5 x6 x7 x8 x9 x10 x11 x12 x13 x14 x15 x16 x17 (ix1 r)
      = outputs (R := 1000000) (hidden (R := 1000000) (val_main_v17 (F := Ideal) x1 x2 x3 x8 x9)
          (val_main_v27 (F := Ideal) x0 x4 x5 x6 x7) (val_main_v3 (F := Ideal) x0 x6 x7) x10 x11 x12 x13 x14 x15) x16 x17
          (ix2 r (1 : Fin 2)) := by
    rw [val_main_v48_apply, val_main_v47_apply, idx48, idx47, outputs_read]
  rw [val_main_v52_apply, val_main_call1_v1_apply, val_main_call1_v0_apply, val_main_cst_5_apply, val_main_v51_apply,
    val_main_call0_v4_apply, val_main_call0_v6_apply, val_main_call0_v11_apply, val_main_call0_v1_apply, val_main_call0_v10_apply,
    val_main_call0_v9_apply, val_main_call0_v8_apply, val_main_call0_v7_apply, val_main_call0_v3_apply, val_main_call0_v0_apply,
    val_main_call0_v2_apply, val_main_call0_v5_apply, val_main_v50_apply, val_main_v49_apply, val_main_cst_4_apply, h]
  rfl

end Cert.ReferenceIdeal.Spec

end
-- ==== Proof.Bridge.lean ====
/-
  The two programs compute the same two numbers for every joint.

  The kernel program's joint and torso features are the reference's (both are `X · W + b`), so its two aggregates
  are the reference's (the same gather and scatter-add of equal features along the same edge lists), and its head is
  the reference's head of equal inputs. Hence the kernel program's first result at joint `r` is the reference's, and
  likewise the second.
-/
import proofs.«168928_j48232482734726_2_alg».proof.Proof.FoldHead
import proofs.«168928_j48232482734726_2_alg».proof.Proof.RefSide

set_option maxRecDepth 16384

noncomputable section

open Idealize.ShloMosaic Idealize.ShloMosaic.TcCoe Idealize.SL.Sem

namespace Cert.Bridge

open Idealize.ShloMosaic.ValueIdx Cert.Gcn Cert.JointNet Cert.KernelIdeal.Fold Cert.KernelIdeal.Gen Cert.ReferenceIdeal.Read
  Cert.ReferenceIdeal.Spec

variable (m : (ℓ : Loc Cert.KernelIdeal.nD Cert.KernelIdeal.τ Cert.KernelIdeal.sig) → Buf (Elt Ideal) ℓ)
  (ρ : Dev Cert.KernelIdeal.nD → PrngReg)

/-- The kernel program's joint features are the reference's. -/
theorem joint_same (c : Dev Cert.KernelIdeal.nD) : xj m c = val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (jointFeat_eq _ _ _).symm

/-- The kernel program's torso features are the reference's. -/
theorem torso_same (c : Dev Cert.KernelIdeal.nD) : xt m c = val_main_v7 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
  (torsoFeat_eq _ _ _).symm

/-- The kernel program's two outputs per joint are the reference's head of the reference's stages. -/
theorem net_same (c : Dev Cert.KernelIdeal.nD) :
    net m c = outputs (R := 1000000) (hidden (R := 1000000)
        (val_main_v17 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
        (val_main_v27 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (val_main_v3 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
        (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  unfold net
  rw [torso_same, joint_same]
  rfl

/-- The first result, joint by joint. -/
theorem loc_same (c : Dev Cert.KernelIdeal.nD) :
    (W7 m ρ c (Proc.devRef .tc Cert.KernelIdeal.main_v29) : Cert.KernelIdeal.S1000000.Idx → EReal)
      = val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  funext i
  obtain ⟨r, rfl⟩ : ∃ r : Fin 1000000, i = ix1 r := ⟨i 0, eq_ix1 i⟩
  rw [loc_at, loc_eq, net_same]

/-- The second result, joint by joint. -/
theorem scale_same (c : Dev Cert.KernelIdeal.nD) :
    (W7 m ρ c (Proc.devRef .tc Cert.KernelIdeal.main_v31) : Cert.KernelIdeal.S1000000.Idx → EReal)
      = val_main_v52 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) := by
  funext i
  obtain ⟨r, rfl⟩ : ∃ r : Fin 1000000, i = ix1 r := ⟨i 0, eq_ix1 i⟩
  rw [scale_at, scale_eq, net_same]

end Cert.Bridge

end
-- ==== Proof.lean ====
/-
  The certificate's claim: the kernel program, its idealization and the reference all run to the end leaving their
  arguments unchanged; the idealization rewrote no operation; and at the ideal values the idealized kernel program
  and the reference, started from memories that agree on the arguments, end with equal results.

  The network is a heterogeneous graph convolution over torso and joint nodes: two input projections, two edge
  aggregations, a hidden layer of two graph-convolution terms, an output layer and a scale head. The kernel program
  computes the two projections and the hidden-plus-output stage in three row-blocked kernels and leaves the edge
  aggregations to the host, as the reference does for everything. Every joint's two results depend on its own rows
  of the intermediate arrays only and every sum is taken in the same order on both sides, so the two programs agree
  joint by joint on all extended reals; the finiteness of the inputs is not used.
-/
import proofs.«168928_j48232482734726_2_alg».proof.Defs
import proofs.«168928_j48232482734726_2_alg».proof.Proof.Gen.Kernel
import proofs.«168928_j48232482734726_2_alg».proof.Proof.Gen.Kernel.Frame
import proofs.«168928_j48232482734726_2_alg».proof.Proof.Gen.KernelIdeal
import proofs.«168928_j48232482734726_2_alg».proof.Proof.Gen.KernelIdeal.Frame
import proofs.«168928_j48232482734726_2_alg».proof.Proof.Gen.ReferenceIdeal
import proofs.«168928_j48232482734726_2_alg».proof.Proof.Gen.ReferenceIdeal.Run
import proofs.«168928_j48232482734726_2_alg».proof.Proof.Gen.ReferenceIdeal.Read
import proofs.«168928_j48232482734726_2_alg».proof.Proof.Gen.Pre_finite_inputs
import proofs.«168928_j48232482734726_2_alg».proof.Proof.KernelRun
import proofs.«168928_j48232482734726_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the reference's two stages of the launch arrays as their results. -/
theorem algebraic : Cert.algebraic_KernelIdeal_ReferenceIdeal := by
  intro m ρ m' ρ' _ hagree
  refine ⟨fun c => Cert.KernelIdeal.Gen.W7 m ρ c (Proc.devRef .tc Cert.KernelIdeal.main_v29),
    fun c => Cert.KernelIdeal.Gen.W7 m ρ c (Proc.devRef .tc Cert.KernelIdeal.main_v31), ?_, ?_⟩
  · refine (θ_run Cert.KernelIdeal.defs _ _).mono (fun r h c => ?_) (Cert.KernelIdeal.Whole.run_all (F := Ideal) m ρ)
    exact ⟨Cert.KernelIdeal.Whole.at_end m ρ h c Cert.KernelIdeal.main_v29 (by decide),
      Cert.KernelIdeal.Whole.at_end m ρ h c Cert.KernelIdeal.main_v31 (by decide),
      (Cert.KernelIdeal.Whole.at_end m ρ h c Cert.KernelIdeal.main_arg0 (by decide)).trans (Cert.KernelIdeal.Gen.W7_main_arg0 m ρ c),
      (Cert.KernelIdeal.Whole.at_end m ρ h c Cert.KernelIdeal.main_arg1 (by decide)).trans (Cert.KernelIdeal.Gen.W7_main_arg1 m ρ c),
      (Cert.KernelIdeal.Whole.at_end m ρ h c Cert.KernelIdeal.main_arg2 (by decide)).trans (Cert.KernelIdeal.Gen.W7_main_arg2 m ρ c),
      (Cert.KernelIdeal.Whole.at_end m ρ h c Cert.KernelIdeal.main_arg3 (by decide)).trans (Cert.KernelIdeal.Gen.W7_main_arg3 m ρ c),
      (Cert.KernelIdeal.Whole.at_end m ρ h c Cert.KernelIdeal.main_arg4 (by decide)).trans (Cert.KernelIdeal.Gen.W7_main_arg4 m ρ c),
      (Cert.KernelIdeal.Whole.at_end m ρ h c Cert.KernelIdeal.main_arg5 (by decide)).trans (Cert.KernelIdeal.Gen.W7_main_arg5 m ρ c),
      (Cert.KernelIdeal.Whole.at_end m ρ h c Cert.KernelIdeal.main_arg6 (by decide)).trans (Cert.KernelIdeal.Gen.W7_main_arg6 m ρ c),
      (Cert.KernelIdeal.Whole.at_end m ρ h c Cert.KernelIdeal.main_arg7 (by decide)).trans (Cert.KernelIdeal.Gen.W7_main_arg7 m ρ c),
      (Cert.KernelIdeal.Whole.at_end m ρ h c Cert.KernelIdeal.main_arg8 (by decide)).trans (Cert.KernelIdeal.Gen.W7_main_arg8 m ρ c),
      (Cert.KernelIdeal.Whole.at_end m ρ h c Cert.KernelIdeal.main_arg9 (by decide)).trans (Cert.KernelIdeal.Gen.W7_main_arg9 m ρ c),
      (Cert.KernelIdeal.Whole.at_end m ρ h c Cert.KernelIdeal.main_arg10 (by decide)).trans (Cert.KernelIdeal.Gen.W7_main_arg10 m ρ c),
      (Cert.KernelIdeal.Whole.at_end m ρ h c Cert.KernelIdeal.main_arg11 (by decide)).trans (Cert.KernelIdeal.Gen.W7_main_arg11 m ρ c),
      (Cert.KernelIdeal.Whole.at_end m ρ h c Cert.KernelIdeal.main_arg12 (by decide)).trans (Cert.KernelIdeal.Gen.W7_main_arg12 m ρ c),
      (Cert.KernelIdeal.Whole.at_end m ρ h c Cert.KernelIdeal.main_arg13 (by decide)).trans (Cert.KernelIdeal.Gen.W7_main_arg13 m ρ c),
      (Cert.KernelIdeal.Whole.at_end m ρ h c Cert.KernelIdeal.main_arg14 (by decide)).trans (Cert.KernelIdeal.Gen.W7_main_arg14 m ρ c),
      (Cert.KernelIdeal.Whole.at_end m ρ h c Cert.KernelIdeal.main_arg15 (by decide)).trans (Cert.KernelIdeal.Gen.W7_main_arg15 m ρ c),
      (Cert.KernelIdeal.Whole.at_end m ρ h c Cert.KernelIdeal.main_arg16 (by decide)).trans (Cert.KernelIdeal.Gen.W7_main_arg16 m ρ c),
      (Cert.KernelIdeal.Whole.at_end m ρ h c Cert.KernelIdeal.main_arg17 (by decide)).trans (Cert.KernelIdeal.Gen.W7_main_arg17 m ρ c)⟩
  · refine (θ_run Cert.ReferenceIdeal.defs _ _).mono (fun r h c => ?_) (Cert.ReferenceIdeal.Value.run (F := Ideal) m' ρ')
    obtain ⟨h46, h52, hargs⟩ := h c
    refine ⟨h46.trans ?_, h52.trans ?_, hargs⟩
    · rw [Cert.ReferenceIdeal.Read.val_main_v46_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
      exact (Cert.Bridge.loc_same m ρ c).symm
    · rw [Cert.ReferenceIdeal.Read.val_main_v52_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
      exact (Cert.Bridge.scale_same m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
